-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v68_1)) (v1 : (c : Dev Cert.KernelIdeal.nD) → Buf (Elt Ideal) ((c.tc : Thread Cert.KernelIdeal.nD Cert.KernelIdeal.τ).loc Cert.KernelIdeal.main_v68_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v68_1) = v0 c
          ∧ r.2.mem ((c.tc : Thread Cert.KernelIdeal.nD Cert.KernelIdeal.τ).loc Cert.KernelIdeal.main_v68_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_v88) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S3x64x64 : Shape := ⟨3, ![3, 64, 64]⟩
abbrev S3x64 : Shape := ⟨2, ![3, 64]⟩
abbrev S256x40 : Shape := ⟨2, ![256, 40]⟩
abbrev S40 : Shape := ⟨1, ![40]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S3x64x64 : S_.BroadcastsInDim S3x64x64 (![] : Fin 0 → Fin S3x64x64.rank)
  reducesTo_S3x64x64_S_d0_1_2 : S3x64x64.ReducesTo [0, 1, 2] S_
  bcast_S_S3x64 : S_.BroadcastsInDim S3x64 (![] : Fin 0 → Fin S3x64.rank)
  reducesTo_S3x64_S_d0_1 : S3x64.ReducesTo [0, 1] S_
  bcast_S_S256x40 : S_.BroadcastsInDim S256x40 (![] : Fin 0 → Fin S256x40.rank)
  reducesTo_S256x40_S_d0_1 : S256x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S3x64 .f32) (main_arg6 : FVec F S256x40 .f32) (main_arg7 : FVec F S40 .f32) (main_v13 : IVec S_ 1) (main_v16 : IVec S3x64x64 1) : IVec S_ 1 :=
  let main_c_5 : IVec S_ 1 := constantI S_ 1 1#1
  let main_v17 : IVec S_ 1 := (fun x v => Host.reduce IntOp.andi x v reducesTo_S3x64x64_S_d0_1_2 h_S_) main_v16 main_c_5
  let main_v18 : IVec S_ 1 := andi main_v13 main_v17
  let main_v19 : FVec F S3x64 .f32 := Host.absf main_arg5
  let main_cst_6 : FVec F S_ .f32 := constant S_ .f32 0x7F800000#32
  let main_v20 : FVec F S3x64 .f32 := broadcastInDim S3x64 ![] bcast_S_S3x64 main_cst_6
  let main_v21 : IVec S3x64 1 := cmpf .olt main_v19 main_v20
  let main_c_7 : IVec S_ 1 := constantI S_ 1 1#1
  let main_v22 : IVec S_ 1 := (fun x v => Host.reduce IntOp.andi x v reducesTo_S3x64_S_d0_1 h_S_) main_v21 main_c_7
  let main_v23 : IVec S_ 1 := andi main_v18 main_v22
  let main_v24 : FVec F S256x40 .f32 := Host.absf main_arg6
  let main_cst_8 : FVec F S_ .f32 := constant S_ .f32 0x7F800000#32
  let main_v25 : FVec F S256x40 .f32 := broadcastInDim S256x40 ![] bcast_S_S256x40 main_cst_8
  let main_v26 : IVec S256x40 1 := cmpf .olt main_v24 main_v25
  let main_c_9 : IVec S_ 1 := constantI S_ 1 1#1
  let main_v27 : IVec S_ 1 := (fun x v => Host.reduce IntOp.andi x v reducesTo_S256x40_S_d0_1 h_S_) main_v26 main_c_9
  let main_v28 : IVec S_ 1 := andi main_v23 main_v27
  let main_v29 : FVec F S40 .f32 := Host.absf main_arg7
  let main_cst_10 : FVec F S_ .f32 := constant S_ .f32 0x7F800000#32
  let main_v30 : FVec F S40 .f32 := broadcastInDim S40 ![] bcast_S_S40 main_cst_10
  let main_v31 : IVec S40 1 := cmpf .olt main_v29 main_v30
  let main_c_11 : IVec S_ 1 := constantI S_ 1 1#1
  let main_v32 : IVec S_ 1 := (fun x v => Host.reduce IntOp.andi x v reducesTo_S40_S_d0 h_S_) main_v31 main_c_11
  let main_v33 : IVec S_ 1 := andi main_v28 main_v32
  main_v33

def fn {F : FTy → Type} [FloatOps F] (main_arg0 : FVec F S100000x64 .f32) (main_arg1 : IVec S2x1600000 32) (main_arg2 : FVec F S3x64x64 .f32) (main_arg3 : FVec F S3x64 .f32) (main_arg4 : FVec F S3x64x64 .f32) (main_arg5 : FVec F S3x64 .f32) (main_arg6 : FVec F S256x40 .f32) (main_arg7 : FVec F S40 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S3x64x64 .f32 := Host.absf main_arg2
  let main_cst_0 : FVec F S_ .f32 := constant S_ .f32 0x7F800000#32
  let main_v5 : FVec F S3x64x64 .f32 := broadcastInDim S3x64x64 ![] bcast_S_S3x64x64 main_cst_0
  let main_v6 : IVec S3x64x64 1 := cmpf .olt main_v4 main_v5
  let main_c_1 : IVec S_ 1 := constantI S_ 1 1#1
  let main_v7 : IVec S_ 1 := (fun x v => Host.reduce IntOp.andi x v reducesTo_S3x64x64_S_d0_1_2 h_S_) main_v6 main_c_1
  let main_v8 : IVec S_ 1 := andi main_v3 main_v7
  let main_v9 : FVec F S3x64 .f32 := Host.absf main_arg3
  let main_cst_2 : FVec F S_ .f32 := constant S_ .f32 0x7F800000#32
  let main_v10 : FVec F S3x64 .f32 := broadcastInDim S3x64 ![] bcast_S_S3x64 main_cst_2
  let main_v11 : IVec S3x64 1 := cmpf .olt main_v9 main_v10
  let main_c_3 : IVec S_ 1 := constantI S_ 1 1#1
  let main_v12 : IVec S_ 1 := (fun x v => Host.reduce IntOp.andi x v reducesTo_S3x64_S_d0_1 h_S_) main_v11 main_c_3
  let main_v13 : IVec S_ 1 := andi main_v8 main_v12
  let main_v14 : FVec F S3x64x64 .f32 := Host.absf main_arg4
  let main_cst_4 : FVec F S_ .f32 := constant S_ .f32 0x7F800000#32
  let main_v15 : FVec F S3x64x64 .f32 := broadcastInDim S3x64x64 ![] bcast_S_S3x64x64 main_cst_4
  let main_v16 : IVec S3x64x64 1 := cmpf .olt main_v14 main_v15
  fn_part1 (F := F) main_arg5 main_arg6 main_arg7 main_v13 main_v16
-- ==== Kernel.lean ====
abbrev S100000x64 : Shape := ⟨2, ![100000, 64]⟩
abbrev S2x1600000 : Shape := ⟨2, ![2, 1600000]⟩
abbrev S3x64x64 : Shape := ⟨3, ![3, 64, 64]⟩
abbrev S3x64 : Shape := ⟨2, ![3, 64]⟩
abbrev S256x40 : Shape := ⟨2, ![256, 40]⟩
abbrev S40 : Shape := ⟨1, ![40]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S1x64x64 : Shape := ⟨3, ![1, 64, 64]⟩
abbrev S64x64 : Shape := ⟨2, ![64, 64]⟩
abbrev S1x64 : Shape := ⟨2, ![1, 64]⟩
abbrev S64 : Shape := ⟨1, ![64]⟩
abbrev S10000x64 : Shape := ⟨2, ![10000, 64]⟩
abbrev S1x40 : Shape := ⟨2, ![1, 40]⟩
abbrev S100000x256 : Shape := ⟨2, ![100000, 256]⟩
abbrev S100000x40 : Shape := ⟨2, ![100000, 40]⟩
abbrev S5000x64 : Shape := ⟨2, ![5000, 64]⟩
abbrev S5000x256 : Shape := ⟨2, ![5000, 256]⟩
abbrev S5000x40 : Shape := ⟨2, ![5000, 40]⟩

abbrev nBuf : Space → Nat
  | .hbm => 87
  | .vmem => 44
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S3x64x64, .f32⟩
  | .hbm, ⟨3, _⟩ => ⟨S3x64, .f32⟩
  | .hbm, ⟨4, _⟩ => ⟨S3x64x64, .f32⟩
  | .hbm, ⟨5, _⟩ => ⟨S3x64, .f32⟩
  | .hbm, ⟨6, _⟩ => ⟨S256x40, .f32⟩
  | .hbm, ⟨7, _⟩ => ⟨S40, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x64, .f32⟩
  | .hbm, ⟨21, _⟩ => ⟨S_, .f32⟩
  | .hbm, ⟨22, _⟩ => ⟨S100000x64, .f32⟩
  | .hbm, ⟨23, _⟩ => ⟨S1600000x1, .i32⟩
  | .hbm, ⟨24, _⟩ => ⟨S100000x64, .f32⟩
  | .hbm, ⟨25, _⟩ => ⟨S1x64x64, .f32⟩
  | .hbm, ⟨26, _⟩ => ⟨S64x64, .f32⟩
  | .hbm, ⟨27, _⟩ => ⟨S1x64, .f32⟩
  | .hbm, ⟨28, _⟩ => ⟨S64, .f32⟩
  | .hbm, ⟨29, _⟩ => ⟨S1x64x64, .f32⟩
  | .hbm, ⟨30, _⟩ => ⟨S64x64, .f32⟩
  | .hbm, ⟨31, _⟩ => ⟨S1x64, .f32⟩
  | .hbm, ⟨32, _⟩ => ⟨S64, .f32⟩
  | .hbm, ⟨33, _⟩ => ⟨S1x64, .f32⟩
  | .hbm, ⟨34, _⟩ => ⟨S1x64, .f32⟩
  | .hbm, ⟨35, _⟩ => ⟨S100000x64, .f32⟩
  | .hbm, ⟨36, _⟩ => ⟨S_, .i32⟩
  | .hbm, ⟨37, _⟩ => ⟨S1600000, .i32⟩
  | .hbm, ⟨38, _⟩ => ⟨S1600000, .i1⟩
  | .hbm, ⟨39, _⟩ => ⟨S_, .i32⟩
  | .hbm, ⟨40, _⟩ => ⟨S1600000, .i32⟩
  | .hbm, ⟨41, _⟩ => ⟨S1600000, .i32⟩
  | .hbm, ⟨42, _⟩ => ⟨S1600000, .i32⟩
  | .hbm, ⟨43, _⟩ => ⟨S1600000x1, .i32⟩
  | .hbm, ⟨44, _⟩ => ⟨S1600000x64, .f32⟩
  | .hbm, ⟨45, _⟩ => ⟨S_, .f32⟩
  | .hbm, ⟨46, _⟩ => ⟨S100000x64, .f32⟩
  | .hbm, ⟨47, _⟩ => ⟨S1600000x1, .i32⟩
  | .hbm, ⟨48, _⟩ => ⟨S100000x64, .f32⟩
  | .hbm, ⟨49, _⟩ => ⟨S1x64x64, .f32⟩
  | .hbm, ⟨50, _⟩ => ⟨S64x64, .f32⟩
  | .hbm, ⟨51, _⟩ => ⟨S1x64, .f32⟩
  | .hbm, ⟨52, _⟩ => ⟨S64, .f32⟩
  | .hbm, ⟨53, _⟩ => ⟨S1x64x64, .f32⟩
  | .hbm, ⟨54, _⟩ => ⟨S64x64, .f32⟩
  | .hbm, ⟨55, _⟩ => ⟨S1x64, .f32⟩
  | .hbm, ⟨56, _⟩ => ⟨S64, .f32⟩
  | .hbm, ⟨57, _⟩ => ⟨S1x64, .f32⟩
  | .hbm, ⟨58, _⟩ => ⟨S1x64, .f32⟩
  | .hbm, ⟨59, _⟩ => ⟨S100000x64, .f32⟩
  | .hbm, ⟨60, _⟩ => ⟨S_, .i32⟩
  | .hbm, ⟨61, _⟩ => ⟨S1600000, .i32⟩
  | .hbm, ⟨62, _⟩ => ⟨S1600000, .i1⟩
  | .hbm, ⟨63, _⟩ => ⟨S_, .i32⟩
  | .hbm, ⟨64, _⟩ => ⟨S1600000, .i32⟩
  | .hbm, ⟨65, _⟩ => ⟨S1600000, .i32⟩
  | .hbm, ⟨66, _⟩ => ⟨S1600000, .i32⟩
  | .hbm, ⟨67, _⟩ => ⟨S1600000x1, .i32⟩
  | .hbm, ⟨68, _⟩ => ⟨S1600000x64, .f32⟩
  | .hbm, ⟨69, _⟩ => ⟨S_, .f32⟩
  | .hbm, ⟨70, _⟩ => ⟨S100000x64, .f32⟩
  | .hbm, ⟨71, _⟩ => ⟨S1600000x1, .i32⟩
  | .hbm, ⟨72, _⟩ => ⟨S100000x64, .f32⟩
  | .hbm, ⟨73, _⟩ => ⟨S1x64x64, .f32⟩
  | .hbm, ⟨74, _⟩ => ⟨S64x64, .f32⟩
  | .hbm, ⟨75, _⟩ => ⟨S1x64, .f32⟩
  | .hbm, ⟨76, _⟩ => ⟨S64, .f32⟩
  | .hbm, ⟨77, _⟩ => ⟨S1x64x64, .f32⟩
  | .hbm, ⟨78, _⟩ => ⟨S64x64, .f32⟩
  | .hbm, ⟨79, _⟩ => ⟨S1x64, .f32⟩
  | .hbm, ⟨80, _⟩ => ⟨S64, .f32⟩
  | .hbm, ⟨81, _⟩ => ⟨S1x64, .f32⟩
  | .hbm, ⟨82, _⟩ => ⟨S1x64, .f32⟩
  | .hbm, ⟨83, _⟩ => ⟨S100000x64, .f32⟩
  | .hbm, ⟨84, _⟩ => ⟨S1x40, .f32⟩
  | .hbm, ⟨85, _⟩ => ⟨S100000x256, .f32⟩
  | .hbm, ⟨86, _⟩ => ⟨S100000x40, .f32⟩
  | .local _ .vmem, ⟨0, _⟩ => ⟨S10000x64, .f32⟩
  | .local _ .vmem, ⟨1, _⟩ => ⟨S10000x64, .f32⟩
  | .local _ .vmem, ⟨2, _⟩ => ⟨S10000x64, .f32⟩
  | .local _ .vmem, ⟨3, _⟩ => ⟨S10000x64, .f32⟩
  | .local _ .vmem, ⟨4, _⟩ => ⟨S64x64, .f32⟩
  | .local _ .vmem, ⟨5, _⟩ => ⟨S1x64, .f32⟩
  | .local _ .vmem, ⟨6, _⟩ => ⟨S64x64, .f32⟩
  | .local _ .vmem, ⟨7, _⟩ => ⟨S1x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S10000x64, .f32⟩
  | .local _ .vmem, ⟨14, _⟩ => ⟨S64x64, .f32⟩
  | .local _ .vmem, ⟨15, _⟩ => ⟨S1x64, .f32⟩
  | .local _ .vmem, ⟨16, _⟩ => ⟨S64x64, .f32⟩
  | .local _ .vmem, ⟨17, _⟩ => ⟨S1x64, .f32⟩
  | .local _ .vmem, ⟨18, _⟩ => ⟨S10000x64, .f32⟩
  | .local _ .vmem, ⟨19, _⟩ => ⟨S10000x64, .f32⟩
  | .local _ .vmem, ⟨20, _⟩ => ⟨S10000x64, .f32⟩
  | .local _ .vmem, ⟨21, _⟩ => ⟨S10000x64, .f32⟩
  | .local _ .vmem, ⟨22, _⟩ => ⟨S10000x64, .f32⟩
  | .local _ .vmem, ⟨23, _⟩ => ⟨S10000x64, .f32⟩
  | .local _ .vmem, ⟨24, _⟩ => ⟨S64x64, .f32⟩
  | .local _ .vmem, ⟨25, _⟩ => ⟨S1x64, .f32⟩
  | .local _ .vmem, ⟨26, _⟩ => ⟨S64x64, .f32⟩
  | .local _ .vmem, ⟨27, _⟩ => ⟨S1x64, .f32⟩
  | .local _ .vmem, ⟨28, _⟩ => ⟨S10000x64, .f32⟩
  | .local _ .vmem, ⟨29, _⟩ => ⟨S10000x64, .f32⟩
  | .local _ .vmem, ⟨30, _⟩ => ⟨S5000x64, .f32⟩
  | .local _ .vmem, ⟨31, _⟩ => ⟨S5000x64, .f32⟩
  | .local _ .vmem, ⟨32, _⟩ => ⟨S5000x64, .f32⟩
  | .local _ .vmem, ⟨33, _⟩ => ⟨S5000x64, .f32⟩
  | .local _ .vmem, ⟨34, _⟩ => ⟨S5000x64, .f32⟩
  | .local _ .vmem, ⟨35, _⟩ => ⟨S5000x64, .f32⟩
  | .local _ .vmem, ⟨36, _⟩ => ⟨S5000x64, .f32⟩
  | .local _ .vmem, ⟨37, _⟩ => ⟨S5000x64, .f32⟩
  | .local _ .vmem, ⟨38, _⟩ => ⟨S256x40, .f32⟩
  | .local _ .vmem, ⟨39, _⟩ => ⟨S1x40, .f32⟩
  | .local _ .vmem, ⟨40, _⟩ => ⟨S5000x256, .f32⟩
  | .local _ .vmem, ⟨41, _⟩ => ⟨S5000x256, .f32⟩
  | .local _ .vmem, ⟨42, _⟩ => ⟨S5000x40, .f32⟩
  | .local _ .vmem, ⟨43, _⟩ => ⟨S5000x40, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_c_1 : Ref sig .tc := ⟨.hbm, 36, rfl⟩
abbrev main_v25 : Ref sig .tc := ⟨.hbm, 37, rfl⟩
abbrev main_v26 : Ref sig .tc := ⟨.hbm, 38, rfl⟩
abbrev main_c_2 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_3 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_c_4 : Ref sig .tc := ⟨.hbm, 60, rfl⟩
abbrev main_v46 : Ref sig .tc := ⟨.hbm, 61, rfl⟩
abbrev main_v47 : Ref sig .tc := ⟨.hbm, 62, rfl⟩
abbrev main_c_5 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_cst_6 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68_0 : Ref sig .tc := ⟨.hbm, 85, rfl⟩
abbrev main_v68_1 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg6_0 : Ref sig .tc := ⟨.vmem, 28, rfl⟩
abbrev cc2_stg6_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg1_1 : Ref sig .tc := ⟨.vmem, 33, rfl⟩
abbrev cc3_stg2_0 : Ref sig .tc := ⟨.vmem, 34, rfl⟩
abbrev cc3_stg2_1 : Ref sig .tc := ⟨.vmem, 35, rfl⟩
abbrev cc3_stg3_0 : Ref sig .tc := ⟨.vmem, 36, rfl⟩
abbrev cc3_stg3_1 : Ref sig .tc := ⟨.vmem, 37, rfl⟩
abbrev cc3_stg4_0 : Ref sig .tc := ⟨.vmem, 38, rfl⟩
abbrev cc3_stg5_0 : Ref sig .tc := ⟨.vmem, 39, rfl⟩
abbrev cc3_stg6_0 : Ref sig .tc := ⟨.vmem, 40, rfl⟩
abbrev cc3_stg6_1 : Ref sig .tc := ⟨.vmem, 41, rfl⟩
abbrev cc3_stg7_0 : Ref sig .tc := ⟨.vmem, 42, rfl⟩
abbrev cc3_stg7_1 : Ref sig .tc := ⟨.vmem, 43, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem3_0 : DmaSem sig := 25
abbrev cc2_sem4_0 : DmaSem sig := 26
abbrev cc2_sem5_0 : DmaSem sig := 27
abbrev cc2_sem6_0 : DmaSem sig := 28
abbrev cc2_sem6_1 : DmaSem sig := 29
abbrev cc3_sem0_0 : DmaSem sig := 30
abbrev cc3_sem0_1 : DmaSem sig := 31
abbrev cc3_sem1_0 : DmaSem sig := 32
abbrev cc3_sem1_1 : DmaSem sig := 33
abbrev cc3_sem2_0 : DmaSem sig := 34
abbrev cc3_sem2_1 : DmaSem sig := 35
abbrev cc3_sem3_0 : DmaSem sig := 36
abbrev cc3_sem3_1 : DmaSem sig := 37
abbrev cc3_sem4_0 : DmaSem sig := 38
abbrev cc3_sem5_0 : DmaSem sig := 39
abbrev cc3_sem6_0 : DmaSem sig := 40
abbrev cc3_sem6_1 : DmaSem sig := 41
abbrev cc3_sem7_0 : DmaSem sig := 42
abbrev cc3_sem7_1 : DmaSem sig := 43

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S10000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S10000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S10000x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S5000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 1 → Memref sig .tc .vmem S256x40 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x40 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S5000x256 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 2 → Memref sig .tc .vmem S5000x40 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  slices_S3x64x64_S1x64x64_0_0_0 : S3x64x64.Slices ![0, 0, 0] S1x64x64
  shapeCasts_S1x64x64_S64x64 : S1x64x64.ShapeCasts S64x64
  slices_S3x64_S1x64_0_0 : S3x64.Slices ![0, 0] S1x64
  shapeCasts_S1x64_S64 : S1x64.ShapeCasts S64
  shapeCasts_S64_S1x64 : S64.ShapeCasts S1x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  shapeCasts_S40_S1x40 : S40.ShapeCasts S1x40
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  concatenates_S5000x64_S5000x64_S5000x64_S5000x64_S5000x256_d1 : Shape.Concatenates [S5000x64, S5000x64, S5000x64, S5000x64] S5000x256 1
  inb_S5000x256_S5000x256_0_0 : ∀ a, (![0, 0] : Fin 2 → Nat) a + S5000x256.size a ≤ S5000x256.size a
  h_S5000x256 : 0 < S5000x256.numel
  inb_S256x40_S256x40_0_0 : ∀ a, (![0, 0] : Fin 2 → Nat) a + S256x40.size a ≤ S256x40.size a
  h_S256x40 : 0 < S256x40.numel
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  inb_S5000x40_S5000x40_0_0 : ∀ a, (![0, 0] : Fin 2 → Nat) a + S5000x40.size a ≤ S5000x40.size a
  h_S5000x40 : 0 < S5000x40.numel
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S10000x64_S64x64_S10000x64_1_0_0_1_n_n_wf : DotDims.WF S10000x64 S64x64 S10000x64 [1] [0] [0] [1] [] []
  dot_S5000x256_S256x40_S5000x40_1_0_0_1_n_n_wf : DotDims.WF S5000x256 S256x40 S5000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x64.size a ≤ S100000x64.size a
  hwx0_1 : ∀ i : grid0.Coords, EltTy.bits .f32 = 32 ∨ (Rect.block (s := S100000x64) S10000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S10000x64.size a ≤ S100000x64.size a
  hwx0_6 : ∀ i : grid0.Coords, EltTy.bits .f32 = 32 ∨ (Rect.block (s := S100000x64) S10000x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S100000x64.size a
  hwx1_1 : ∀ i : grid1.Coords, EltTy.bits .f32 = 32 ∨ (Rect.block (s := S100000x64) S10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S10000x64.size a ≤ S100000x64.size a
  hwx1_6 : ∀ i : grid1.Coords, EltTy.bits .f32 = 32 ∨ (Rect.block (s := S100000x64) S10000x64.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x64.size a ≤ S100000x64.size a
  hwx2_1 : ∀ i : grid2.Coords, EltTy.bits .f32 = 32 ∨ (Rect.block (s := S100000x64) S10000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S10000x64.size a ≤ S100000x64.size a
  hwx2_6 : ∀ i : grid2.Coords, EltTy.bits .f32 = 32 ∨ (Rect.block (s := S100000x64) S10000x64.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S100000x64.size a
  hwx3_1 : ∀ i : grid3.Coords, EltTy.bits .f32 = 32 ∨ (Rect.block (s := S100000x64) S5000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S100000x64.size a
  hwx3_2 : ∀ i : grid3.Coords, EltTy.bits .f32 = 32 ∨ (Rect.block (s := S100000x64) S5000x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x64.size a ≤ S100000x64.size a
  hwx3_3 : ∀ i : grid3.Coords, EltTy.bits .f32 = 32 ∨ (Rect.block (s := S100000x64) S5000x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S256x40.size a ≤ S256x40.size a
  hwx3_4 : ∀ i : grid3.Coords, EltTy.bits .f32 = 32 ∨ (Rect.block (s := S256x40) S256x40.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x40.size a ≤ S1x40.size a
  hwx3_5 : ∀ i : grid3.Coords, EltTy.bits .f32 = 32 ∨ (Rect.block (s := S1x40) S1x40.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x256.size a ≤ S100000x256.size a
  hwx3_6 : ∀ i : grid3.Coords, EltTy.bits .f32 = 32 ∨ (Rect.block (s := S100000x256) S5000x256.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S5000x40.size a ≤ S100000x40.size a
  hwx3_7 : ∀ i : grid3.Coords, EltTy.bits .f32 = 32 ∨ (Rect.block (s := S100000x40) S5000x40.size (cc3_transform_7 i) (hinb3_7 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S5000x256_S256x40_S5000x40_1_0_0_1_n_n : DotDims S5000x256 S256x40 S5000x40 where
  lhsContracting := [1]
  rhsContracting := [0]
  lhsNonContracting := [0]
  rhsNonContracting := [1]
  lhsBatch := []
  rhsBatch := []
  wf := dot_S5000x256_S256x40_S5000x40_1_0_0_1_n_n_wf

abbrev win0_0 : Pipeline.Window sig grid0 :=
  Pipeline.Window.ofSpec (Memref.whole main_v13) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v22) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v24) S10000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v34) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v36) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v43) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v40) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v44) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v45) S10000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v55) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v45) S10000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v57) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v64) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v61) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v65) S1x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v66) S10000x64.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_arg0) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v24) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v45) S5000x64.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v66) S5000x64.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_arg6) S256x40.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v67) S1x40.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v68_0) S5000x256.size cc3_transform_6 reads3_6 true false 2 stage3_6 sem3_6
    hrank3 hreads3_6 hinb3_6 nbuf3_6 (Memref.isWhole_whole _) hwx3_6 hstage3_6

abbrev win3_7 : Pipeline.Window sig grid3 :=
  Pipeline.Window.ofSpec (Memref.whole main_v68_1) S5000x40.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S3x64x64 : Shape := ⟨3, ![3, 64, 64]⟩
abbrev S3x64 : Shape := ⟨2, ![3, 64]⟩
abbrev S256x40 : Shape := ⟨2, ![256, 40]⟩
abbrev S40 : Shape := ⟨1, ![40]⟩
abbrev S1x1600000 : Shape := ⟨2, ![1, 1600000]⟩
abbrev S1600000 : Shape := ⟨1, ![1600000]⟩
abbrev S1x64x64 : Shape := ⟨3, ![1, 64, 64]⟩
abbrev S64x64 : Shape := ⟨2, ![64, 64]⟩
abbrev S1x64 : Shape := ⟨2, ![1, 64]⟩
abbrev S64 : Shape := ⟨1, ![64]⟩
abbrev S_ : Shape := ⟨0, ![]⟩
abbrev S1600000x1 : Shape := ⟨2, ![1600000, 1]⟩
abbrev S1600000x64 : Shape := ⟨2, ![1600000, 64]⟩
abbrev S100000x256 : Shape := ⟨2, ![100000, 256]⟩
abbrev S100000x40 : Shape := ⟨2, ![100000, 40]⟩
abbrev S1x40 : Shape := ⟨2, ![1, 40]⟩

abbrev nBuf : Space → Nat
  | .hbm => 116
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S3x64x64, .f32⟩
  | .hbm, ⟨3, _⟩ => ⟨S3x64, .f32⟩
  | .hbm, ⟨4, _⟩ => ⟨S3x64x64, .f32⟩
  | .hbm, ⟨5, _⟩ => ⟨S3x64, .f32⟩
  | .hbm, ⟨6, _⟩ => ⟨S256x40, .f32⟩
  | .hbm, ⟨7, _⟩ => ⟨S40, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S1x64x64, .f32⟩
  | .hbm, ⟨13, _⟩ => ⟨S64x64, .f32⟩
  | .hbm, ⟨14, _⟩ => ⟨S1x64, .f32⟩
  | .hbm, ⟨15, _⟩ => ⟨S64, .f32⟩
  | .hbm, ⟨16, _⟩ => ⟨S1x64x64, .f32⟩
  | .hbm, ⟨17, _⟩ => ⟨S64x64, .f32⟩
  | .hbm, ⟨18, _⟩ => ⟨S1x64, .f32⟩
  | .hbm, ⟨19, _⟩ => ⟨S64, .f32⟩
  | .hbm, ⟨20, _⟩ => ⟨S_, .i32⟩
  | .hbm, ⟨21, _⟩ => ⟨S1600000, .i32⟩
  | .hbm, ⟨22, _⟩ => ⟨S1600000, .i1⟩
  | .hbm, ⟨23, _⟩ => ⟨S_, .i32⟩
  | .hbm, ⟨24, _⟩ => ⟨S1600000, .i32⟩
  | .hbm, ⟨25, _⟩ => ⟨S1600000, .i32⟩
  | .hbm, ⟨26, _⟩ => ⟨S1600000, .i32⟩
  | .hbm, ⟨27, _⟩ => ⟨S1600000x1, .i32⟩
  | .hbm, ⟨28, _⟩ => ⟨S1600000x64, .f32⟩
  | .hbm, ⟨29, _⟩ => ⟨S_, .f32⟩
  | .hbm, ⟨30, _⟩ => ⟨S100000x64, .f32⟩
  | .hbm, ⟨31, _⟩ => ⟨S1600000x1, .i32⟩
  | .hbm, ⟨32, _⟩ => ⟨S100000x64, .f32⟩
  | .hbm, ⟨33, _⟩ => ⟨S100000x64, .f32⟩
  | .hbm, ⟨34, _⟩ => ⟨S100000x64, .f32⟩
  | .hbm, ⟨35, _⟩ => ⟨S1x64, .f32⟩
  | .hbm, ⟨36, _⟩ => ⟨S100000x64, .f32⟩
  | .hbm, ⟨37, _⟩ => ⟨S100000x64, .f32⟩
  | .hbm, ⟨38, _⟩ => ⟨S_, .f32⟩
  | .hbm, ⟨39, _⟩ => ⟨S100000x64, .f32⟩
  | .hbm, ⟨40, _⟩ => ⟨S100000x64, .f32⟩
  | .hbm, ⟨41, _⟩ => ⟨S100000x64, .f32⟩
  | .hbm, ⟨42, _⟩ => ⟨S1x64, .f32⟩
  | .hbm, ⟨43, _⟩ => ⟨S100000x64, .f32⟩
  | .hbm, ⟨44, _⟩ => ⟨S100000x64, .f32⟩
  | .hbm, ⟨45, _⟩ => ⟨S1x64x64, .f32⟩
  | .hbm, ⟨46, _⟩ => ⟨S64x64, .f32⟩
  | .hbm, ⟨47, _⟩ => ⟨S1x64, .f32⟩
  | .hbm, ⟨48, _⟩ => ⟨S64, .f32⟩
  | .hbm, ⟨49, _⟩ => ⟨S1x64x64, .f32⟩
  | .hbm, ⟨50, _⟩ => ⟨S64x64, .f32⟩
  | .hbm, ⟨51, _⟩ => ⟨S1x64, .f32⟩
  | .hbm, ⟨52, _⟩ => ⟨S64, .f32⟩
  | .hbm, ⟨53, _⟩ => ⟨S_, .i32⟩
  | .hbm, ⟨54, _⟩ => ⟨S1600000, .i32⟩
  | .hbm, ⟨55, _⟩ => ⟨S1600000, .i1⟩
  | .hbm, ⟨56, _⟩ => ⟨S_, .i32⟩
  | .hbm, ⟨57, _⟩ => ⟨S1600000, .i32⟩
  | .hbm, ⟨58, _⟩ => ⟨S1600000, .i32⟩
  | .hbm, ⟨59, _⟩ => ⟨S1600000, .i32⟩
  | .hbm, ⟨60, _⟩ => ⟨S1600000x1, .i32⟩
  | .hbm, ⟨61, _⟩ => ⟨S1600000x64, .f32⟩
  | .hbm, ⟨62, _⟩ => ⟨S_, .f32⟩
  | .hbm, ⟨63, _⟩ => ⟨S100000x64, .f32⟩
  | .hbm, ⟨64, _⟩ => ⟨S1600000x1, .i32⟩
  | .hbm, ⟨65, _⟩ => ⟨S100000x64, .f32⟩
  | .hbm, ⟨66, _⟩ => ⟨S100000x64, .f32⟩
  | .hbm, ⟨67, _⟩ => ⟨S100000x64, .f32⟩
  | .hbm, ⟨68, _⟩ => ⟨S1x64, .f32⟩
  | .hbm, ⟨69, _⟩ => ⟨S100000x64, .f32⟩
  | .hbm, ⟨70, _⟩ => ⟨S100000x64, .f32⟩
  | .hbm, ⟨71, _⟩ => ⟨S_, .f32⟩
  | .hbm, ⟨72, _⟩ => ⟨S100000x64, .f32⟩
  | .hbm, ⟨73, _⟩ => ⟨S100000x64, .f32⟩
  | .hbm, ⟨74, _⟩ => ⟨S100000x64, .f32⟩
  | .hbm, ⟨75, _⟩ => ⟨S1x64, .f32⟩
  | .hbm, ⟨76, _⟩ => ⟨S100000x64, .f32⟩
  | .hbm, ⟨77, _⟩ => ⟨S100000x64, .f32⟩
  | .hbm, ⟨78, _⟩ => ⟨S1x64x64, .f32⟩
  | .hbm, ⟨79, _⟩ => ⟨S64x64, .f32⟩
  | .hbm, ⟨80, _⟩ => ⟨S1x64, .f32⟩
  | .hbm, ⟨81, _⟩ => ⟨S64, .f32⟩
  | .hbm, ⟨82, _⟩ => ⟨S1x64x64, .f32⟩
  | .hbm, ⟨83, _⟩ => ⟨S64x64, .f32⟩
  | .hbm, ⟨84, _⟩ => ⟨S1x64, .f32⟩
  | .hbm, ⟨85, _⟩ => ⟨S64, .f32⟩
  | .hbm, ⟨86, _⟩ => ⟨S_, .i32⟩
  | .hbm, ⟨87, _⟩ => ⟨S1600000, .i32⟩
  | .hbm, ⟨88, _⟩ => ⟨S1600000, .i1⟩
  | .hbm, ⟨89, _⟩ => ⟨S_, .i32⟩
  | .hbm, ⟨90, _⟩ => ⟨S1600000, .i32⟩
  | .hbm, ⟨91, _⟩ => ⟨S1600000, .i32⟩
  | .hbm, ⟨92, _⟩ => ⟨S1600000, .i32⟩
  | .hbm, ⟨93, _⟩ => ⟨S1600000x1, .i32⟩
  | .hbm, ⟨94, _⟩ => ⟨S1600000x64, .f32⟩
  | .hbm, ⟨95, _⟩ => ⟨S_, .f32⟩
  | .hbm, ⟨96, _⟩ => ⟨S100000x64, .f32⟩
  | .hbm, ⟨97, _⟩ => ⟨S1600000x1, .i32⟩
  | .hbm, ⟨98, _⟩ => ⟨S100000x64, .f32⟩
  | .hbm, ⟨99, _⟩ => ⟨S100000x64, .f32⟩
  | .hbm, ⟨100, _⟩ => ⟨S100000x64, .f32⟩
  | .hbm, ⟨101, _⟩ => ⟨S1x64, .f32⟩
  | .hbm, ⟨102, _⟩ => ⟨S100000x64, .f32⟩
  | .hbm, ⟨103, _⟩ => ⟨S100000x64, .f32⟩
  | .hbm, ⟨104, _⟩ => ⟨S_, .f32⟩
  | .hbm, ⟨105, _⟩ => ⟨S100000x64, .f32⟩
  | .hbm, ⟨106, _⟩ => ⟨S100000x64, .f32⟩
  | .hbm, ⟨107, _⟩ => ⟨S100000x64, .f32⟩
  | .hbm, ⟨108, _⟩ => ⟨S1x64, .f32⟩
  | .hbm, ⟨109, _⟩ => ⟨S100000x64, .f32⟩
  | .hbm, ⟨110, _⟩ => ⟨S100000x64, .f32⟩
  | .hbm, ⟨111, _⟩ => ⟨S100000x256, .f32⟩
  | .hbm, ⟨112, _⟩ => ⟨S100000x40, .f32⟩
  | .hbm, ⟨113, _⟩ => ⟨S1x40, .f32⟩
  | .hbm, ⟨114, _⟩ => ⟨S100000x40, .f32⟩
  | .hbm, ⟨115, _⟩ => ⟨S100000x40, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c : Ref sig .tc := ⟨.hbm, 20, rfl⟩
abbrev main_v12 : Ref sig .tc := ⟨.hbm, 21, rfl⟩
abbrev main_v13 : Ref sig .tc := ⟨.hbm, 22, rfl⟩
abbrev main_c_0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_call0_cst : Ref sig .tc := ⟨.hbm, 38, rfl⟩
abbrev main_call0_v0 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_c_1 : Ref sig .tc := ⟨.hbm, 53, rfl⟩
abbrev main_v40 : Ref sig .tc := ⟨.hbm, 54, rfl⟩
abbrev main_v41 : Ref sig .tc := ⟨.hbm, 55, rfl⟩
abbrev main_c_2 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_cst_3 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_call1_cst : Ref sig .tc := ⟨.hbm, 71, rfl⟩
abbrev main_call1_v0 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_c_4 : Ref sig .tc := ⟨.hbm, 86, rfl⟩
abbrev main_v68 : Ref sig .tc := ⟨.hbm, 87, rfl⟩
abbrev main_v69 : Ref sig .tc := ⟨.hbm, 88, rfl⟩
abbrev main_c_5 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_cst_6 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_call2_cst : Ref sig .tc := ⟨.hbm, 104, rfl⟩
abbrev main_call2_v0 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  slices_S3x64x64_S1x64x64_0_0_0 : S3x64x64.Slices ![0, 0, 0] S1x64x64
  shapeCasts_S1x64x64_S64x64 : S1x64x64.ShapeCasts S64x64
  slices_S3x64_S1x64_0_0 : S3x64.Slices ![0, 0] S1x64
  shapeCasts_S1x64_S64 : S1x64.ShapeCasts S64
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  concatenates_S100000x64_S100000x64_S100000x64_S100000x64_S100000x256_d1 : Shape.Concatenates [S100000x64, S100000x64, S100000x64, S100000x64] S100000x256 1
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []
  dot_S100000x256_S256x40_S100000x40_1_0_0_1_n_n_wf : DotDims.WF S100000x256 S256x40 S100000x40 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x256_S256x40_S100000x40_1_0_0_1_n_n : DotDims S100000x256 S256x40 S100000x40 where
  lhsContracting := [1]
  rhsContracting := [0]
  lhsNonContracting := [0]
  rhsNonContracting := [1]
  lhsBatch := []
  rhsBatch := []
  wf := dot_S100000x256_S256x40_S100000x40_1_0_0_1_n_n_wf

class Facts : Prop extends Facts₀ where

variable [Facts]
-- ==== Proof.KernelRun.lean ====
/-
  The idealized program's run with its two result arrays named.

  The program is four kernels among stretches of host operations. Its generated frame proof threads the buffers'
  contents through the eight segments — after each stretch the fold of its operations, after each kernel its arrays at
  what the tiles written back leave — and ends with every buffer at the last boundary's contents. The generated statement
  keeps only the arguments; here the same run is stated once more keeping also the two results: the classifier's output
  and the joined features end at the last boundary's contents at their buffers.
-/
import proofs.«172555_j16810501996621_1_alg».proof.Proof.Gen.KernelIdeal.Frame

set_option maxRecDepth 16384

noncomputable section

namespace Cert.KernelIdeal.Results

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without a fault; the two result arrays end at the last boundary's contents and the
    arguments as launched. -/
theorem run : θ_run defs (onTc (τ := τ) (main (F := F))) ⟨m, fun _ => 0, ρ⟩ (fun r => ∀ c : Dev nD,
      r.2.mem ((c.tc : Thread nD τ).loc main_v68_1) = W8 m ρ c (Proc.devRef .tc main_v68_1)
      ∧ r.2.mem ((c.tc : Thread nD τ).loc main_v68_0) = W8 m ρ c (Proc.devRef .tc main_v68_0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v68_1 (by decide)),
       h c _ (mem_uc main_v68_0 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c)⟩)

end Cert.KernelIdeal.Results

end
-- ==== Proof.LibPlainProduct.lean ====
/-
  A rows-by-columns matrix product, read at an index, at the ideal values.

  An M×K matrix times a K×P matrix, contracting the left operand's columns with the right operand's rows and with no batch
  axis. A kernel computes it on the matrix unit, accumulating into a splat of zeros; a host program computes it as a
  `dot_general`. At the ideal values both, read at (r, c), are the plain sum over k of lhs(r, k) · rhs(k, c): no rounding, no
  chunk order, and the zero accumulator adds nothing. So the two spellings of a dense layer meet at this sum, term by term.
-/
import Idealize.ShloMosaic.Lib.ValueIdx
import Idealize.ShloMosaic.PureOps.Ideal.Laws

noncomputable section

namespace PlainProduct

open Idealize.ShloMosaic Idealize.ShloMosaic.ValueIdx

variable {M K P : Nat}

/-- The dimension numbers of an M×K by K×P product. -/
abbrev plainDims (M K P : Nat)
    (wf : DotDims.WF (⟨2, ![M, K]⟩ : Shape) ⟨2, ![K, P]⟩ ⟨2, ![M, P]⟩ [1] [0] [0] [1] [] []) :
    DotDims ⟨2, ![M, K]⟩ ⟨2, ![K, P]⟩ ⟨2, ![M, P]⟩ where
  lhsContracting := [1]
  rhsContracting := [0]
  lhsNonContracting := [0]
  rhsNonContracting := [1]
  lhsBatch := []
  rhsBatch := []
  wf := wf

variable (wf : DotDims.WF (⟨2, ![M, K]⟩ : Shape) ⟨2, ![K, P]⟩ ⟨2, ![M, P]⟩ [1] [0] [0] [1] [] [])

/-- The sum over the contraction index is the sum over k of lhs(r, k) · rhs(k, c). -/
theorem contr_sum (lhs : (⟨2, ![M, K]⟩ : Shape).Idx → EReal) (rhs : (⟨2, ![K, P]⟩ : Shape).Idx → EReal) (r : Fin M) (c : Fin P) :
    ∑ q : (plainDims M K P wf).contr.Idx,
        lhs ((plainDims M K P wf).lhsIdx (ix2 r c) q) * rhs ((plainDims M K P wf).rhsIdx (ix2 r c) q)
      = ∑ k : Fin K, lhs (ix2 r k) * rhs (ix2 k c) := by
  rw [← Equiv.sum_comp (contrEquiv1 (plainDims M K P wf) K rfl rfl).symm]
  refine Finset.sum_congr rfl fun k _ => ?_
  have hl : (plainDims M K P wf).lhsIdx (ix2 r c) ((contrEquiv1 (plainDims M K P wf) K rfl rfl).symm k) = ix2 r k := by
    funext a
    refine Fin.ext ?_
    match a with
    | ⟨0, _⟩ => rfl
    | ⟨1, _⟩ =>
      exact (DotDims.lhsIdx_val_of_single (d := plainDims M K P wf) (cl := (1 : Fin 2)) rfl (ix2 r c) _).trans
        (contrEquiv1_symm_val (plainDims M K P wf) K rfl rfl k)
  have hr : (plainDims M K P wf).rhsIdx (ix2 r c) ((contrEquiv1 (plainDims M K P wf) K rfl rfl).symm k) = ix2 k c := by
    funext a
    refine Fin.ext ?_
    match a with
    | ⟨0, _⟩ =>
      exact (DotDims.rhsIdx_val_of_single (d := plainDims M K P wf) (cr := (0 : Fin 2)) rfl (ix2 r c) _).trans
        (contrEquiv1_symm_val (plainDims M K P wf) K rfl rfl k)
    | ⟨1, _⟩ => rfl
  rw [hl, hr]

/-- THE KERNEL'S PRODUCT, accumulated into a splat of zeros, READ AT (r, c). -/
theorem matmul_zero_apply {φ₁ φ₂ : FTy} (prec : Option ContractPrecision) (lhs : FVec Ideal ⟨2, ![M, K]⟩ φ₁)
    (rhs : FVec Ideal ⟨2, ![K, P]⟩ φ₂) (r : Fin M) (c : Fin P) :
    matmul (plainDims M K P wf) prec lhs rhs (constant ⟨2, ![M, P]⟩ .f32 0x00000000#32) (ix2 r c)
      = ∑ k : Fin K, lhs (ix2 r k) * rhs (ix2 k c) :=
  (Ideal.matmul_constant_zero_apply (plainDims M K P wf) prec lhs rhs (ix2 r c)).trans (contr_sum wf lhs rhs r c)

/-- THE HOST'S PRODUCT READ AT (r, c). -/
theorem dotGeneral_apply {φ₁ φ₂ : FTy} (prec : Option ContractPrecision) (lhs : FVec Ideal ⟨2, ![M, K]⟩ φ₁)
    (rhs : FVec Ideal ⟨2, ![K, P]⟩ φ₂) (r : Fin M) (c : Fin P) :
    Host.dotGeneral (plainDims M K P wf) prec lhs rhs (ix2 r c) = ∑ k : Fin K, lhs (ix2 r k) * rhs (ix2 k c) :=
  (Ideal.dotGeneral_apply (plainDims M K P wf) prec .single lhs rhs (ix2 r c)).trans (contr_sum wf lhs rhs r c)

end PlainProduct

end
-- ==== Proof.LibDense.lean ====
/-
  A dense layer on the extended reals, index by index, in its two spellings.

  For a matrix `a` of R rows and K columns, weights `w` (K by P) and a bias row `b` (1 by P), entry (r, c) of the
  layer is  Σ_k a(r, k) · w(k, c)  +  b(0, c).  A kernel computes it on the matrix unit into a splat of zeros and adds the
  bias row broadcast over the rows; a host program computes it as a `dot_general` and adds the bias row broadcast in
  dimensions (0, 1). Both, read at an index, are that sum: no rounding, no order of accumulation, and the zero
  accumulator adds nothing.

  Every entry of the result depends on ONE row of `a`: a block of consecutive rows of the result is the same function of
  the matching block of rows of `a` (`dense_rows`). The rectifier (maximum with the zero word) and the entrywise sum
  are pointwise, so they commute with taking row blocks trivially.

  Also here: four matrices of 64 columns joined along the columns, read at an index — column k of the result is column
  k mod 64 of piece k / 64 —, and two spellings of a vector as a one-row matrix.
-/
import Idealize.ShloMosaic.Lib.ValueIdx
import Idealize.ShloMosaic.Lib.ValueLayout
import Idealize.ShloMosaic.Lib.Pipeline.Value
import Idealize.ShloMosaic.PureOps.Ideal.Laws
import proofs.«172555_j16810501996621_1_alg».proof.Proof.LibPlainProduct

noncomputable section

namespace DenseSpec

open Idealize.ShloMosaic Idealize.ShloMosaic.ValueIdx

/-- An a-by-b matrix of extended reals. -/
abbrev Mat (a b : Nat) := (⟨2, ![a, b]⟩ : Shape).Idx → EReal

variable {R K P : Nat}

/-- Entry (r, c) of `a · w + b`, the bias a one-row matrix. -/
def dense (a : Mat R K) (w : Mat K P) (b : Mat 1 P) : Mat R P := fun i =>
  (∑ k : Fin K, a (ix2 (i 0) k) * w (ix2 k (i 1))) + b (ix2 (0 : Fin 1) (i 1))

theorem dense_apply (a : Mat R K) (w : Mat K P) (b : Mat 1 P) (r : Fin R) (c : Fin P) :
    dense a w b (ix2 r c) = (∑ k : Fin K, a (ix2 r k) * w (ix2 k c)) + b (ix2 (0 : Fin 1) c) := rfl

/-- The rectifier: the maximum with the value of the f32 zero word. -/
def relu (z : Mat R P) : Mat R P := fun i => max (z i) (Ideal.ofBits .f32 0x00000000#32)

/-- The entrywise sum. -/
def add (x y : Mat R P) : Mat R P := fun i => x i + y i

variable {R' : Nat}

/-- A row of `a · w + b` is a function of the same row of `a`. -/
theorem dense_rows (a : Mat R K) (a' : Mat R' K) (w : Mat K P) (b : Mat 1 P) (r : Fin R) (r' : Fin R')
    (h : ∀ k : Fin K, a' (ix2 r' k) = a (ix2 r k)) (c : Fin P) : dense a' w b (ix2 r' c) = dense a w b (ix2 r c) := by
  rw [dense_apply, dense_apply]
  exact congrArg (· + b (ix2 (0 : Fin 1) c)) (Finset.sum_congr rfl fun k _ => by rw [h k])

/-! ## The kernel's spelling and the host's -/

variable (wf : DotDims.WF (⟨2, ![R, K]⟩ : Shape) ⟨2, ![K, P]⟩ ⟨2, ![R, P]⟩ [1] [0] [0] [1] [] [])

/-- The matrix unit's product into a splat of zeros, plus the bias row broadcast over the rows, is the dense layer. -/
theorem matmul_bias {φ₁ φ₂ : FTy} (prec : Option ContractPrecision) (a : FVec Ideal ⟨2, ![R, K]⟩ φ₁) (w : FVec Ideal ⟨2, ![K, P]⟩ φ₂)
    (b : FVec Ideal ⟨2, ![1, P]⟩ .f32) (hb : (⟨2, ![1, P]⟩ : Shape).Broadcasts ⟨2, ![R, P]⟩) :
    addf (matmul (PlainProduct.plainDims R K P wf) prec a w (constant ⟨2, ![R, P]⟩ .f32 0x00000000#32)) (broadcastTo ⟨2, ![R, P]⟩ b hb)
      = dense a w b := by
  funext i
  obtain ⟨r, c, rfl⟩ : ∃ (r : Fin R) (c : Fin P), i = ix2 r c := ⟨i 0, i 1, eq_ix2 i⟩
  rw [addf_apply, PlainProduct.matmul_zero_apply wf prec a w r c, broadcastTo_1b_ab_apply b hb r c, dense_apply]

/-- The host's `dot_general`, plus the bias row broadcast in dimensions (0, 1), is the dense layer. -/
theorem dotGeneral_bias {φ₁ φ₂ : FTy} (prec : Option ContractPrecision) (a : FVec Ideal ⟨2, ![R, K]⟩ φ₁) (w : FVec Ideal ⟨2, ![K, P]⟩ φ₂)
    (b : FVec Ideal ⟨2, ![1, P]⟩ .f32) (hb : (⟨2, ![1, P]⟩ : Shape).BroadcastsInDim ⟨2, ![R, P]⟩ ![0, 1]) :
    addf (Host.dotGeneral (PlainProduct.plainDims R K P wf) prec a w) (broadcastInDim ⟨2, ![R, P]⟩ ![0, 1] hb b)
      = dense a w b := by
  funext i
  obtain ⟨r, c, rfl⟩ : ∃ (r : Fin R) (c : Fin P), i = ix2 r c := ⟨i 0, i 1, eq_ix2 i⟩
  rw [addf_apply, PlainProduct.dotGeneral_apply wf prec a w r c, dense_apply]
  refine congrArg (_ + ·) ?_
  refine broadcastInDim_apply _ hb b (ix2 r c) (ix2 (0 : Fin 1) c) fun ax => ?_
  match ax with
  | ⟨0, _⟩ => rfl
  | ⟨1, _⟩ =>
    show c.val = if P = 1 then 0 else c.val
    split
    · have := c.isLt; omega
    · rfl

/-! ## A vector as a one-row matrix, two ways -/

/-- A vector of P entries cast to a 1-by-P matrix reads, at (0, c), the vector at c. -/
theorem shapeCast_row_apply (x : (⟨1, ![P]⟩ : Shape).Idx → EReal) (h : (⟨1, ![P]⟩ : Shape).ShapeCasts ⟨2, ![1, P]⟩) (u : Fin 1) (c : Fin P) :
    shapeCast ⟨2, ![1, P]⟩ x h (ix2 u c) = x (ix1 c) :=
  shapeCast_apply x h _ _ (by
    have hu : u.val = 0 := by omega
    rw [Shape.rowMajor_val_two, Shape.rowMajor_val_one]
    show c.val = u.val * P + c.val
    rw [hu, Nat.zero_mul, Nat.zero_add])

/-- The same vector broadcast in dimension 1 to a 1-by-P matrix is the cast. -/
theorem broadcastInDim_row_eq_shapeCast (x : (⟨1, ![P]⟩ : Shape).Idx → EReal) (h : (⟨1, ![P]⟩ : Shape).ShapeCasts ⟨2, ![1, P]⟩)
    (hb : (⟨1, ![P]⟩ : Shape).BroadcastsInDim ⟨2, ![1, P]⟩ ![1]) :
    broadcastInDim ⟨2, ![1, P]⟩ ![1] hb x = shapeCast ⟨2, ![1, P]⟩ x h := by
  funext i
  obtain ⟨u, c, rfl⟩ : ∃ (u : Fin 1) (c : Fin P), i = ix2 u c := ⟨i 0, i 1, eq_ix2 i⟩
  rw [shapeCast_row_apply x h u c]
  refine broadcastInDim_apply _ hb x (ix2 u c) (ix1 c) fun ax => ?_
  match ax with
  | ⟨0, _⟩ =>
    show c.val = if P = 1 then 0 else c.val
    split
    · have := c.isLt; omega
    · rfl

end DenseSpec

end
-- ==== Proof.LibConcat4.lean ====
/-
  Four matrices of 64 columns joined along the columns, read at an index.

  The join of u0, u1, u2, u3 (each R by 64) is R by 256; its entry (r, k) is entry (r, k mod 64) of piece k / 64. A block of
  consecutive rows of the join is the join of the matching row blocks of the pieces, since the row coordinate passes
  through unchanged.
-/
import Idealize.ShloMosaic.Lib.ValueIdx
import Idealize.ShloMosaic.Lib.Pipeline.Value

noncomputable section

namespace Concat4

open Idealize.ShloMosaic Idealize.ShloMosaic.ValueIdx

variable {R : Nat} {α : Type}

/-- Piece number n of four (anything past 2 is the last). -/
def pick4 (u0 u1 u2 u3 : α) : Nat → α
  | 0 => u0
  | 1 => u1
  | 2 => u2
  | _ => u3

/-- Entry (r, k) of the join: piece k / 64 at (r, k mod 64). -/
def cat4 (u0 u1 u2 u3 : (⟨2, ![R, 64]⟩ : Shape).Idx → α) : (⟨2, ![R, 256]⟩ : Shape).Idx → α := fun i =>
  pick4 u0 u1 u2 u3 ((i 1).val / 64) (ix2 (i 0) (⟨(i 1).val % 64, Nat.mod_lt _ (by decide)⟩ : Fin 64))

theorem cat4_apply (u0 u1 u2 u3 : (⟨2, ![R, 64]⟩ : Shape).Idx → α) (r : Fin R) (k : Fin 256) :
    cat4 u0 u1 u2 u3 (ix2 r k) = pick4 u0 u1 u2 u3 (k.val / 64) (ix2 r (⟨k.val % 64, Nat.mod_lt _ (by decide)⟩ : Fin 64)) := rfl

/-- The four-operand concatenation along axis 1 is `cat4`. -/
theorem concatenate_eq_cat4 (u0 u1 u2 u3 : (⟨2, ![R, 64]⟩ : Shape).Idx → α)
    (h : Shape.Concatenates (([⟨⟨2, ![R, 64]⟩, u0⟩, ⟨⟨2, ![R, 64]⟩, u1⟩, ⟨⟨2, ![R, 64]⟩, u2⟩, ⟨⟨2, ![R, 64]⟩, u3⟩] :
      List ((s : Shape) × (s.Idx → α))).map (·.1)) ⟨2, ![R, 256]⟩ 1) :
    concatenate ⟨2, ![R, 256]⟩ 1 [⟨⟨2, ![R, 64]⟩, u0⟩, ⟨⟨2, ![R, 64]⟩, u1⟩, ⟨⟨2, ![R, 64]⟩, u2⟩, ⟨⟨2, ![R, 64]⟩, u3⟩] h
      = cat4 u0 u1 u2 u3 := by
  funext i
  obtain ⟨r, k, rfl⟩ : ∃ (r : Fin R) (k : Fin 256), i = ix2 r k := ⟨i 0, i 1, eq_ix2 i⟩
  rw [cat4_apply]
  have hk := k.isLt
  have hoff : ∀ b : Fin (⟨2, ![R, 64]⟩ : Shape).rank, b.cast (rfl : (⟨2, ![R, 64]⟩ : Shape).rank = (⟨2, ![R, 256]⟩ : Shape).rank) ≠ (1 : Fin 2) →
      ((ix2 r (⟨k.val % 64, Nat.mod_lt _ (by decide)⟩ : Fin 64) : (⟨2, ![R, 64]⟩ : Shape).Idx) b).val
        = ((ix2 r k : (⟨2, ![R, 256]⟩ : Shape).Idx) (b.cast rfl)).val := fun b hb => by
    match b with
    | ⟨0, _⟩ => rfl
    | ⟨1, _⟩ => exact absurd rfl hb
  have hcases : k.val / 64 = 0 ∨ k.val / 64 = 1 ∨ k.val / 64 = 2 ∨ k.val / 64 = 3 := by omega
  rcases hcases with e | e | e | e
  · rw [e]
    exact concatenate_apply_piece 1 _ h (ix2 r k) 0 (by show 0 < 4; omega) _ u0 rfl rfl 0 rfl _ hoff
      (by show 0 + k.val % 64 = k.val; omega)
  · rw [e]
    exact concatenate_apply_piece 1 _ h (ix2 r k) 1 (by show 1 < 4; omega) _ u1 rfl rfl 64 rfl _ hoff
      (by show 64 + k.val % 64 = k.val; omega)
  · rw [e]
    exact concatenate_apply_piece 1 _ h (ix2 r k) 2 (by show 2 < 4; omega) _ u2 rfl rfl 128 rfl _ hoff
      (by show 128 + k.val % 64 = k.val; omega)
  · rw [e]
    exact concatenate_apply_piece 1 _ h (ix2 r k) 3 (by show 3 < 4; omega) _ u3 rfl rfl 192 rfl _ hoff
      (by show 192 + k.val % 64 = k.val; omega)

variable {R' : Nat}

/-- A row of the join is the join of the same row of the pieces. -/
theorem cat4_rows (u0 u1 u2 u3 : (⟨2, ![R, 64]⟩ : Shape).Idx → α) (v0 v1 v2 v3 : (⟨2, ![R', 64]⟩ : Shape).Idx → α)
    (r : Fin R) (r' : Fin R') (h0 : ∀ q : Fin 64, v0 (ix2 r' q) = u0 (ix2 r q)) (h1 : ∀ q : Fin 64, v1 (ix2 r' q) = u1 (ix2 r q))
    (h2 : ∀ q : Fin 64, v2 (ix2 r' q) = u2 (ix2 r q)) (h3 : ∀ q : Fin 64, v3 (ix2 r' q) = u3 (ix2 r q)) (k : Fin 256) :
    cat4 v0 v1 v2 v3 (ix2 r' k) = cat4 u0 u1 u2 u3 (ix2 r k) := by
  rw [cat4_apply, cat4_apply]
  have hk := k.isLt
  have hcases : k.val / 64 = 0 ∨ k.val / 64 = 1 ∨ k.val / 64 = 2 ∨ k.val / 64 = 3 := by omega
  rcases hcases with e | e | e | e <;> rw [e]
  · exact h0 _
  · exact h1 _
  · exact h2 _
  · exact h3 _

end Concat4

end
-- ==== Proof.Spec.lean ====
/-
  The graph network, as one function of its inputs on the extended reals.

  One layer, given the neighbourhood sums `agg` and the features `h` (both N by 64), is
      dense (relu (dense (agg + h) w1 b1)) w2 b2 :
  two dense layers with a rectifier between them, applied to the entrywise sum. The classifier joins the input features
  and the three layers' outputs along the columns (N by 256) and applies one more dense layer (256 by 40).

  Each entry of a layer's output, of the join and of the classifier's output depends on one row of the N-row operands
  only; so a block of consecutive rows of any of them is the same function of the matching row blocks. This is what a
  kernel that works through the rows tile by tile computes.
-/
import proofs.«172555_j16810501996621_1_alg».proof.Proof.LibDense
import proofs.«172555_j16810501996621_1_alg».proof.Proof.LibConcat4

noncomputable section

namespace GinSpec

open Idealize.ShloMosaic Idealize.ShloMosaic.ValueIdx DenseSpec Concat4

variable {R R' : Nat}

/-- One layer: `dense (relu (dense (agg + h) w1 b1)) w2 b2`. -/
def layer (agg h : Mat R 64) (w1 : Mat 64 64) (b1 : Mat 1 64) (w2 : Mat 64 64) (b2 : Mat 1 64) : Mat R 64 :=
  dense (relu (dense (add agg h) w1 b1)) w2 b2

/-- A row of a layer's output is a function of the same row of `agg` and of `h`. -/
theorem layer_rows (agg h : Mat R 64) (agg' h' : Mat R' 64) (w1 : Mat 64 64) (b1 : Mat 1 64) (w2 : Mat 64 64) (b2 : Mat 1 64)
    (r : Fin R) (r' : Fin R') (ha : ∀ k : Fin 64, agg' (ix2 r' k) = agg (ix2 r k)) (hh : ∀ k : Fin 64, h' (ix2 r' k) = h (ix2 r k))
    (c : Fin 64) : layer agg' h' w1 b1 w2 b2 (ix2 r' c) = layer agg h w1 b1 w2 b2 (ix2 r c) := by
  unfold layer
  refine dense_rows _ _ w2 b2 r r' (fun k => ?_) c
  show max (dense (add agg' h') w1 b1 (ix2 r' k)) _ = max (dense (add agg h) w1 b1 (ix2 r k)) _
  rw [dense_rows (add agg h) (add agg' h') w1 b1 r r' (fun j => by
    show agg' (ix2 r' j) + h' (ix2 r' j) = agg (ix2 r j) + h (ix2 r j)
    rw [ha j, hh j]) k]

/-- The classifier: the four feature matrices joined along the columns, then one dense layer. -/
def classify (x h1 h2 h3 : Mat R 64) (wl : Mat 256 40) (bl : Mat 1 40) : Mat R 40 :=
  dense (cat4 x h1 h2 h3) wl bl

/-- A row of the classifier's output is a function of the same row of the four feature matrices. -/
theorem classify_rows (x h1 h2 h3 : Mat R 64) (x' h1' h2' h3' : Mat R' 64) (wl : Mat 256 40) (bl : Mat 1 40) (r : Fin R) (r' : Fin R')
    (e0 : ∀ q : Fin 64, x' (ix2 r' q) = x (ix2 r q)) (e1 : ∀ q : Fin 64, h1' (ix2 r' q) = h1 (ix2 r q))
    (e2 : ∀ q : Fin 64, h2' (ix2 r' q) = h2 (ix2 r q)) (e3 : ∀ q : Fin 64, h3' (ix2 r' q) = h3 (ix2 r q)) (c : Fin 40) :
    classify x' h1' h2' h3' wl bl (ix2 r' c) = classify x h1 h2 h3 wl bl (ix2 r c) := by
  unfold classify
  exact dense_rows _ _ wl bl r r' (fun k => cat4_rows x h1 h2 h3 x' h1' h2' h3' r r' e0 e1 e2 e3 k) c

end GinSpec

end
-- ==== Proof.Layer0.lean ====
/-
  What the first layer's kernel leaves in its result array, at the ideal values, for ANY contents of the buffers when the
  kernel is entered.

  The kernel walks the 100000 rows in ten tiles of 10000. At tile t it reads rows 10000·t … 10000·t + 9999 of the
  neighbourhood sums and of the features, the whole of both weight matrices and both bias rows, and writes the same rows
  of the result. What it computes on a tile is the layer function of the tile's rows (`pay_eq`: two products on the
  matrix unit into zero accumulators, each plus its bias row, a rectifier between them; the roundings to a shorter
  format are the identity at the ideal values). A row of the layer's output depends on that row of its inputs alone, so
  the tile written back is the matching row block of the layer function of the whole arrays (`flushed_eq`); the ten
  tiles cover the array (`arr_eq`).
-/
import proofs.«172555_j16810501996621_1_alg».proof.Proof.Gen.KernelIdeal.Frame
import proofs.«172555_j16810501996621_1_alg».proof.Proof.Spec
import Idealize.ShloMosaic.Lib.Pipeline.Value

noncomputable section

namespace Cert.KernelIdeal.Layer0

open Cert.KernelIdeal Cert.KernelIdeal.Gen Idealize.ShloMosaic Idealize.ShloMosaic.TcCoe Idealize.SL.Sem
open Idealize.ShloMosaic.ValueIdx DenseSpec GinSpec
open Idealize.ShloMosaic.Pipeline (Dat)

theorem hz : (![0, 0] : Fin 2 → Nat) = fun _ => 0 := funext fun a => by fin_cases a <;> rfl

/-- On a tile the kernel computes the layer function of the tile. -/
theorem pay_eq (x0 x1 : Vec Ideal S10000x64 .f32) (x2 : Vec Ideal S64x64 .f32) (x3 : Vec Ideal S1x64 .f32)
    (x4 : Vec Ideal S64x64 .f32) (x5 : Vec Ideal S1x64 .f32) :
    k0_pay1 (F := Ideal) x0 x1 x2 x3 x4 x5 = layer x0 x1 x2 x3 x4 x5 := by
  unfold k0_pay1
  simp only [shapeCast_self]
  rw [show dot_S10000x64_S64x64_S10000x64_1_0_0_1_n_n
    = PlainProduct.plainDims 10000 64 64 dot_S10000x64_S64x64_S10000x64_1_0_0_1_n_n_wf from rfl]
  rw [matmul_bias, matmul_bias]
  rfl

variable (V : (c : Dev nD) → (b : Ref sig .tc) → Buf (Elt Ideal) ((c : Thread nD τ).loc b))

/-- The index maps, decided over the ten tiles: the two row-tiled inputs and the output are at tile t, the weights and the
    bias rows at block zero. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

theorem row_lt (t : Fin cfg0.N) (p : Fin 10000) : t.val * 10000 + p.val < 100000 := by
  have h1 : t.val < 10 := lt_of_lt_of_eq t.isLt N_0
  have h2 := p.isLt
  omega

/-- Tile t of the neighbourhood sums is rows 10000·t … of the array. -/
theorem iblk_0 (c : Dev nD) (t : Fin cfg0.N) (p : Fin 10000) (k : Fin 64) :
    (iblk0 V c 0 t : Vec Ideal S10000x64 .f32) (ix2 p k) = (V c main_v13 : S100000x64.Idx → EReal) (ix2 ⟨t.val * 10000 + p.val, row_lt t p⟩ k) := by
  obtain ⟨e0, e1, -⟩ := idx_facts t
  unfold iblk0
  rw [View.read_apply]
  show (V c main_v13 : S100000x64.Idx → EReal) _ = _
  refine congrArg (V c main_v13 : S100000x64.Idx → EReal) (funext fun a => Fin.ext ?_)
  match a with
  | ⟨0, _⟩ => show win0_0.index t (0 : Fin 2) * 10000 + 1 * p.val = t.val * 10000 + p.val; rw [e0]; omega
  | ⟨1, _⟩ => show win0_0.index t (1 : Fin 2) * 64 + 1 * k.val = k.val; rw [e1]; omega

/-- Tile t of the features is rows 10000·t … of the array. -/
theorem iblk_1 (c : Dev nD) (t : Fin cfg0.N) (p : Fin 10000) (k : Fin 64) :
    (iblk0 V c 1 t : Vec Ideal S10000x64 .f32) (ix2 p k) = (V c main_arg0 : S100000x64.Idx → EReal) (ix2 ⟨t.val * 10000 + p.val, row_lt t p⟩ k) := by
  obtain ⟨-, -, e0, e1, -⟩ := idx_facts t
  unfold iblk0
  rw [View.read_apply]
  show (V c main_arg0 : S100000x64.Idx → EReal) _ = _
  refine congrArg (V c main_arg0 : S100000x64.Idx → EReal) (funext fun a => Fin.ext ?_)
  match a with
  | ⟨0, _⟩ => show win0_1.index t (0 : Fin 2) * 10000 + 1 * p.val = t.val * 10000 + p.val; rw [e0]; omega
  | ⟨1, _⟩ => show win0_1.index t (1 : Fin 2) * 64 + 1 * k.val = k.val; rw [e1]; omega

/-- The first weight matrix is read whole at every tile. -/
theorem iblk_2 (c : Dev nD) (t : Fin cfg0.N) : (iblk0 V c 2 t : Vec Ideal S64x64 .f32) = (V c main_v15 : S64x64.Idx → EReal) := by
  obtain ⟨-, -, -, -, e0, e1, -⟩ := idx_facts t
  funext y
  unfold iblk0
  rw [View.read_apply]
  show (V c main_v15 : S64x64.Idx → EReal) _ = _
  refine congrArg (V c main_v15 : S64x64.Idx → EReal) (funext fun a => Fin.ext ?_)
  match a with
  | ⟨0, _⟩ => show win0_2.index t (0 : Fin 2) * 64 + 1 * (y 0).val = (y 0).val; rw [e0]; omega
  | ⟨1, _⟩ => show win0_2.index t (1 : Fin 2) * 64 + 1 * (y 1).val = (y 1).val; rw [e1]; omega

/-- The first bias row is read whole at every tile. -/
theorem iblk_3 (c : Dev nD) (t : Fin cfg0.N) : (iblk0 V c 3 t : Vec Ideal S1x64 .f32) = (V c main_v22 : S1x64.Idx → EReal) := by
  obtain ⟨-, -, -, -, -, -, e0, e1, -⟩ := idx_facts t
  funext y
  unfold iblk0
  rw [View.read_apply]
  show (V c main_v22 : S1x64.Idx → EReal) _ = _
  refine congrArg (V c main_v22 : S1x64.Idx → EReal) (funext fun a => Fin.ext ?_)
  match a with
  | ⟨0, _⟩ => show win0_3.index t (0 : Fin 2) * 1 + 1 * (y 0).val = (y 0).val; rw [e0]; omega
  | ⟨1, _⟩ => show win0_3.index t (1 : Fin 2) * 64 + 1 * (y 1).val = (y 1).val; rw [e1]; omega

/-- The second weight matrix is read whole at every tile. -/
theorem iblk_4 (c : Dev nD) (t : Fin cfg0.N) : (iblk0 V c 4 t : Vec Ideal S64x64 .f32) = (V c main_v19 : S64x64.Idx → EReal) := by
  obtain ⟨-, -, -, -, -, -, -, -, e0, e1, -⟩ := idx_facts t
  funext y
  unfold iblk0
  rw [View.read_apply]
  show (V c main_v19 : S64x64.Idx → EReal) _ = _
  refine congrArg (V c main_v19 : S64x64.Idx → EReal) (funext fun a => Fin.ext ?_)
  match a with
  | ⟨0, _⟩ => show win0_4.index t (0 : Fin 2) * 64 + 1 * (y 0).val = (y 0).val; rw [e0]; omega
  | ⟨1, _⟩ => show win0_4.index t (1 : Fin 2) * 64 + 1 * (y 1).val = (y 1).val; rw [e1]; omega

/-- The second bias row is read whole at every tile. -/
theorem iblk_5 (c : Dev nD) (t : Fin cfg0.N) : (iblk0 V c 5 t : Vec Ideal S1x64 .f32) = (V c main_v23 : S1x64.Idx → EReal) := by
  obtain ⟨-, -, -, -, -, -, -, -, -, -, e0, e1, -⟩ := idx_facts t
  funext y
  unfold iblk0
  rw [View.read_apply]
  show (V c main_v23 : S1x64.Idx → EReal) _ = _
  refine congrArg (V c main_v23 : S1x64.Idx → EReal) (funext fun a => Fin.ext ?_)
  match a with
  | ⟨0, _⟩ => show win0_5.index t (0 : Fin 2) * 1 + 1 * (y 0).val = (y 0).val; rw [e0]; omega
  | ⟨1, _⟩ => show win0_5.index t (1 : Fin 2) * 64 + 1 * (y 1).val = (y 1).val; rw [e1]; omega

/-- The layer function of the arrays as the kernel finds them. -/
abbrev out (c : Dev nD) : S100000x64.Idx → EReal :=
  layer (V c main_v13 : S100000x64.Idx → EReal) (V c main_arg0 : S100000x64.Idx → EReal) (V c main_v15 : S64x64.Idx → EReal)
    (V c main_v22 : S1x64.Idx → EReal) (V c main_v19 : S64x64.Idx → EReal) (V c main_v23 : S1x64.Idx → EReal)

/-- What tile t writes back is tile t of the layer function of the whole arrays. -/
theorem flushed_eq (c : Dev nD) (t : Fin cfg0.N) :
    (dat0 V c).flushed 6 t = ((cfg0.win 6).blk t).view.read (Elt Ideal) (out V c) := by
  show (cfg0.win 6).cut (grid0.coords t) ((dat0 V c).after 6 t) = _
  rw [after0_6]
  unfold out0_6
  rw [View.canon_unit_zero hz]
  simp only [View.ld_unit_zero (S := S10000x64) hz, View.ld_unit_zero (S := S64x64) hz, View.ld_unit_zero (S := S1x64) hz]
  rw [pay_eq, iblk_2 V c t, iblk_3 V c t, iblk_4 V c t, iblk_5 V c t]
  obtain ⟨-, -, -, -, -, -, -, -, -, -, -, -, e0, e1⟩ := idx_facts t
  refine funext fun (j : S10000x64.Idx) => ?_
  obtain ⟨p, q, rfl⟩ : ∃ (p : Fin 10000) (q : Fin 64), j = ix2 p q := ⟨j 0, j 1, eq_ix2 j⟩
  show layer (iblk0 V c 0 t : Vec Ideal S10000x64 .f32) (iblk0 V c 1 t : Vec Ideal S10000x64 .f32) _ _ _ _ (ix2 p q)
    = out V c (((cfg0.win 6).blk t).view.emb (ix2 p q))
  have hemb : ((cfg0.win 6).blk t).view.emb (ix2 p q) = (ix2 (⟨t.val * 10000 + p.val, row_lt t p⟩ : Fin 100000) q : S100000x64.Idx) := by
    refine funext fun a => Fin.ext ?_
    match a with
    | ⟨0, _⟩ => show win0_6.index t (0 : Fin 2) * 10000 + 1 * p.val = t.val * 10000 + p.val; rw [e0]; omega
    | ⟨1, _⟩ => show win0_6.index t (1 : Fin 2) * 64 + 1 * q.val = q.val; rw [e1]; omega
  rw [hemb]
  exact layer_rows _ _ _ _ _ _ _ _ (⟨t.val * 10000 + p.val, row_lt t p⟩ : Fin 100000) p
    (fun k => iblk_0 V c t p k) (fun k => iblk_1 V c t p k) q

/-- An index of the array is in tile t iff each coordinate is in the tile's range. -/
theorem mem_blk (t : Fin cfg0.N) (i : S100000x64.Idx) :
    i ∈ ((cfg0.win 6).blk t).view.set ↔ ∀ a : Fin 2, win0_6.index t a * S10000x64.size a ≤ (i a).val ∧ (i a).val < win0_6.index t a * S10000x64.size a + S10000x64.size a := by
  show i ∈ ((View.whole main_v24).slice (win0_6.rect t)).set ↔ _
  rw [View.set_slice_whole, Rect.mem_set_unit]
  exact Iff.rfl

/-- THE RESULT ARRAY after the kernel: the layer function of the arrays as the kernel found them. -/
theorem arr_eq (c : Dev nD) : (dat0 V c).arrAt 6 cfg0.N = out V c :=
  (dat0 V c).arrAt_eq_of_cover 6 (out V c) (fun t _ => flushed_eq V c t) fun i => by
    have hi0 : (i 0).val < 100000 := (i 0).isLt
    have hi1 : (i 1).val < 64 := (i 1).isLt
    obtain ⟨t, ht⟩ : ∃ t : Fin cfg0.N, t.val = (i 0).val / 10000 :=
      ⟨⟨(i 0).val / 10000, lt_of_lt_of_eq (by omega : (i 0).val / 10000 < 10) N_0.symm⟩, rfl⟩
    obtain ⟨-, -, -, -, -, -, -, -, -, -, -, -, e0, e1⟩ := idx_facts t
    refine ⟨t, flush0_6 t, ?_⟩
    rw [mem_blk]
    intro a
    match a with
    | ⟨0, _⟩ => show win0_6.index t (0 : Fin 2) * 10000 ≤ (i 0).val ∧ (i 0).val < win0_6.index t (0 : Fin 2) * 10000 + 10000; rw [e0]; omega
    | ⟨1, _⟩ => show win0_6.index t (1 : Fin 2) * 64 ≤ (i 1).val ∧ (i 1).val < win0_6.index t (1 : Fin 2) * 64 + 64; rw [e1]; omega

end Cert.KernelIdeal.Layer0

end
-- ==== Proof.RefLayers.lean ====
/-
  The reference program's intermediate values as the network's functions.

  The reference computes each layer on the whole arrays: the entrywise sum of the neighbourhood sums and the features, a
  `dot_general` with the first weights plus the first bias broadcast over the rows, the rectifier (maximum with a splat of
  zero), a second `dot_general` plus the second bias. Read through the dense layer's host spelling this is the layer
  function (`ref_layer`). The joined features are the four-piece join, and the classifier's output one more dense layer
  over them.
-/
import proofs.«172555_j16810501996621_1_alg».proof.Proof.Gen.ReferenceIdeal.Read
import proofs.«172555_j16810501996621_1_alg».proof.Proof.Spec

noncomputable section

namespace Cert.ReferenceIdeal.Layers

open Cert.ReferenceIdeal Cert.ReferenceIdeal.Gen Cert.ReferenceIdeal.Read Idealize.ShloMosaic Idealize.ShloMosaic.TcCoe
open Idealize.ShloMosaic.ValueIdx DenseSpec GinSpec Concat4

/-- One layer in the host's spelling is the layer function. -/
theorem ref_layer (agg h : FVec Ideal S100000x64 .f32) (w1 : FVec Ideal S64x64 .f32) (b1 : FVec Ideal S1x64 .f32)
    (w2 : FVec Ideal S64x64 .f32) (b2 : FVec Ideal S1x64 .f32) :
    addf (Host.dotGeneral dot_S100000x64_S64x64_S100000x64_1_0_0_1_n_n none
        (maximumf (addf (Host.dotGeneral dot_S100000x64_S64x64_S100000x64_1_0_0_1_n_n none (addf agg h) w1)
            (broadcastInDim S100000x64 ![0, 1] bcast_S1x64_S100000x64_0_1 b1))
          (broadcastInDim S100000x64 ![] bcast_S_S100000x64 (constant (F := Ideal) S_ .f32 0x00000000#32))) w2)
      (broadcastInDim S100000x64 ![0, 1] bcast_S1x64_S100000x64_0_1 b2)
    = layer agg h w1 b1 w2 b2 := by
  rw [show dot_S100000x64_S64x64_S100000x64_1_0_0_1_n_n
    = PlainProduct.plainDims 100000 64 64 dot_S100000x64_S64x64_S100000x64_1_0_0_1_n_n_wf from rfl]
  rw [dotGeneral_bias, dotGeneral_bias]
  rfl

variable (x0 : (⟨S100000x64, .f32⟩ : BufTy).Contents (Elt Ideal)) (x1 : (⟨S2x1600000, .i32⟩ : BufTy).Contents (Elt Ideal))
  (x2 : (⟨S3x64x64, .f32⟩ : BufTy).Contents (Elt Ideal)) (x3 : (⟨S3x64, .f32⟩ : BufTy).Contents (Elt Ideal))
  (x4 : (⟨S3x64x64, .f32⟩ : BufTy).Contents (Elt Ideal)) (x5 : (⟨S3x64, .f32⟩ : BufTy).Contents (Elt Ideal))
  (x6 : (⟨S256x40, .f32⟩ : BufTy).Contents (Elt Ideal)) (x7 : (⟨S40, .f32⟩ : BufTy).Contents (Elt Ideal))

/-- The first layer's output. -/
theorem ref_h1 : val_main_v31 (F := Ideal) x0 x1 x2 x3 x4 x5
    = layer (val_main_v21 (F := Ideal) x0 x1) x0 (val_main_v5 (F := Ideal) x2) (val_main_v24 (F := Ideal) x3)
        (val_main_v9 (F := Ideal) x4) (val_main_v29 (F := Ideal) x5) := by
  rw [← ref_layer]; rfl

/-- The second layer's output. -/
theorem ref_h2 : val_main_v59 (F := Ideal) x0 x1 x2 x3 x4 x5
    = layer (val_main_v49 (F := Ideal) x0 x1 x2 x3 x4 x5) (val_main_v31 (F := Ideal) x0 x1 x2 x3 x4 x5) (val_main_v33 (F := Ideal) x2)
        (val_main_v52 (F := Ideal) x3) (val_main_v37 (F := Ideal) x4) (val_main_v57 (F := Ideal) x5) := by
  rw [← ref_layer]; rfl

/-- The third layer's output. -/
theorem ref_h3 : val_main_v87 (F := Ideal) x0 x1 x2 x3 x4 x5
    = layer (val_main_v77 (F := Ideal) x0 x1 x2 x3 x4 x5) (val_main_v59 (F := Ideal) x0 x1 x2 x3 x4 x5) (val_main_v61 (F := Ideal) x2)
        (val_main_v80 (F := Ideal) x3) (val_main_v65 (F := Ideal) x4) (val_main_v85 (F := Ideal) x5) := by
  rw [← ref_layer]; rfl

/-- The joined features. -/
theorem ref_cat : val_main_v88 (F := Ideal) x0 x1 x2 x3 x4 x5
    = cat4 x0 (val_main_v31 (F := Ideal) x0 x1 x2 x3 x4 x5) (val_main_v59 (F := Ideal) x0 x1 x2 x3 x4 x5)
        (val_main_v87 (F := Ideal) x0 x1 x2 x3 x4 x5) := by
  unfold val_main_v88
  exact concatenate_eq_cat4 _ _ _ _ _

/-- The classifier's output. -/
theorem ref_pred : val_main_v92 (F := Ideal) x0 x1 x2 x3 x4 x5 x6 x7
    = classify x0 (val_main_v31 (F := Ideal) x0 x1 x2 x3 x4 x5) (val_main_v59 (F := Ideal) x0 x1 x2 x3 x4 x5)
        (val_main_v87 (F := Ideal) x0 x1 x2 x3 x4 x5) x6 (val_main_v90 (F := Ideal) x7) := by
  unfold classify
  rw [← ref_cat]
  unfold val_main_v92 val_main_v89 val_main_v91
  rw [show dot_S100000x256_S256x40_S100000x40_1_0_0_1_n_n
    = PlainProduct.plainDims 100000 256 40 dot_S100000x256_S256x40_S100000x40_1_0_0_1_n_n_wf from rfl]
  exact dotGeneral_bias _ none _ _ _ _

end Cert.ReferenceIdeal.Layers

end
-- ==== Proof.Chain1.lean ====
/-
  The buffers' contents up to the first layer's result.

  Before the first kernel the host slices the edge list into sources and destinations, wraps negative sources, gathers
  the source rows of the features and adds them into the destination rows of a zero array (the neighbourhood sums), and
  slices the first layer's weights and biases out of the stacked arguments. These are the same operations the reference
  applies, so each buffer holds the reference's value of the same name (by unfolding). The kernel then leaves the layer
  function of its operands in its result array, which is the reference's first layer (`ref_h1`).
-/
import proofs.«172555_j16810501996621_1_alg».proof.Proof.Gen.KernelIdeal.Frame
import proofs.«172555_j16810501996621_1_alg».proof.Proof.Layer0
import proofs.«172555_j16810501996621_1_alg».proof.Proof.RefLayers

noncomputable section

namespace Cert.KernelIdeal.Chain

open Cert.KernelIdeal Cert.KernelIdeal.Gen Idealize.ShloMosaic Idealize.ShloMosaic.TcCoe Idealize.SL.Sem
open Idealize.ShloMosaic.StableHlo
open Idealize.ShloMosaic.Pipeline (Dat)
open Cert.ReferenceIdeal.Read Cert.ReferenceIdeal.Layers DenseSpec GinSpec Concat4

variable (m : (ℓ : Loc nD τ sig) → Buf (Elt Ideal) ℓ) (ρ : Dev nD → PrngReg)

/-! ## Equal operands give equal results -/

theorem layer_congr {R : Nat} {agg agg' h h' : Mat R 64} {w1 w1' : Mat 64 64} {b1 b1' : Mat 1 64} {w2 w2' : Mat 64 64} {b2 b2' : Mat 1 64}
    (e1 : agg = agg') (e2 : h = h') (e3 : w1 = w1') (e4 : b1 = b1') (e5 : w2 = w2') (e6 : b2 = b2') :
    layer agg h w1 b1 w2 b2 = layer agg' h' w1' b1' w2' b2' := by
  subst e1 e2 e3 e4 e5 e6; rfl

theorem cat4_congr {R : Nat} {u0 u0' u1 u1' u2 u2' u3 u3' : Mat R 64} (e0 : u0 = u0') (e1 : u1 = u1') (e2 : u2 = u2') (e3 : u3 = u3') :
    cat4 u0 u1 u2 u3 = cat4 u0' u1' u2' u3' := by
  subst e0 e1 e2 e3; rfl

theorem classify_congr {R : Nat} {u0 u0' u1 u1' u2 u2' u3 u3' : Mat R 64} {wl wl' : Mat 256 40} {bl bl' : Mat 1 40}
    (e0 : u0 = u0') (e1 : u1 = u1') (e2 : u2 = u2') (e3 : u3 = u3') (e4 : wl = wl') (e5 : bl = bl') :
    classify u0 u1 u2 u3 wl bl = classify u0' u1' u2' u3' wl' bl' := by
  subst e0 e1 e2 e3 e4 e5; rfl

/-! ## Before the first kernel -/

theorem w1_arg0 (c : Dev nD) : W1 m ρ c (Proc.devRef .tc main_arg0) = (m ((c : Thread nD τ).loc main_arg0)) := by
  show StableHlo.after hostOps0 (W0 m ρ c) (Proc.devRef .tc main_arg0) = _
  after_results_simp
  all_goals rfl

theorem w1_arg2 (c : Dev nD) : W1 m ρ c (Proc.devRef .tc main_arg2) = (m ((c : Thread nD τ).loc main_arg2)) := by
  show StableHlo.after hostOps0 (W0 m ρ c) (Proc.devRef .tc main_arg2) = _
  after_results_simp
  all_goals rfl

theorem w1_arg3 (c : Dev nD) : W1 m ρ c (Proc.devRef .tc main_arg3) = (m ((c : Thread nD τ).loc main_arg3)) := by
  show StableHlo.after hostOps0 (W0 m ρ c) (Proc.devRef .tc main_arg3) = _
  after_results_simp
  all_goals rfl

theorem w1_arg4 (c : Dev nD) : W1 m ρ c (Proc.devRef .tc main_arg4) = (m ((c : Thread nD τ).loc main_arg4)) := by
  show StableHlo.after hostOps0 (W0 m ρ c) (Proc.devRef .tc main_arg4) = _
  after_results_simp
  all_goals rfl

theorem w1_arg5 (c : Dev nD) : W1 m ρ c (Proc.devRef .tc main_arg5) = (m ((c : Thread nD τ).loc main_arg5)) := by
  show StableHlo.after hostOps0 (W0 m ρ c) (Proc.devRef .tc main_arg5) = _
  after_results_simp
  all_goals rfl

theorem w1_arg6 (c : Dev nD) : W1 m ρ c (Proc.devRef .tc main_arg6) = (m ((c : Thread nD τ).loc main_arg6)) := by
  show StableHlo.after hostOps0 (W0 m ρ c) (Proc.devRef .tc main_arg6) = _
  after_results_simp
  all_goals rfl

theorem w1_arg7 (c : Dev nD) : W1 m ρ c (Proc.devRef .tc main_arg7) = (m ((c : Thread nD τ).loc main_arg7)) := by
  show StableHlo.after hostOps0 (W0 m ρ c) (Proc.devRef .tc main_arg7) = _
  after_results_simp
  all_goals rfl

/-- The edge sources. -/
theorem w1_v1 (c : Dev nD) : W1 m ρ c (Proc.devRef .tc main_v1) = val_main_v1 (F := Ideal) (m ((c : Thread nD τ).loc main_arg1)) := by
  show StableHlo.after hostOps0 (W0 m ρ c) (Proc.devRef .tc main_v1) = _
  after_results_simp
  all_goals rfl

/-- The edge destinations. -/
theorem w1_v3 (c : Dev nD) : W1 m ρ c (Proc.devRef .tc main_v3) = val_main_v3 (F := Ideal) (m ((c : Thread nD τ).loc main_arg1)) := by
  show StableHlo.after hostOps0 (W0 m ρ c) (Proc.devRef .tc main_v3) = _
  after_results_simp
  all_goals rfl

/-- The neighbourhood sums of the input features. -/
theorem r0_agg (c : Dev nD) : W1 m ρ c (Proc.devRef .tc main_v13) = val_main_v21 (F := Ideal) (m ((c : Thread nD τ).loc main_arg0)) (m ((c : Thread nD τ).loc main_arg1)) := by
  show StableHlo.after hostOps0 (W0 m ρ c) (Proc.devRef .tc main_v13) = _
  after_results_simp
  all_goals rfl

theorem r0_w1 (c : Dev nD) : W1 m ρ c (Proc.devRef .tc main_v15) = val_main_v5 (F := Ideal) (m ((c : Thread nD τ).loc main_arg2)) := by
  show StableHlo.after hostOps0 (W0 m ρ c) (Proc.devRef .tc main_v15) = _
  after_results_simp
  all_goals rfl

theorem r0_w2 (c : Dev nD) : W1 m ρ c (Proc.devRef .tc main_v19) = val_main_v9 (F := Ideal) (m ((c : Thread nD τ).loc main_arg4)) := by
  show StableHlo.after hostOps0 (W0 m ρ c) (Proc.devRef .tc main_v19) = _
  after_results_simp
  all_goals rfl

theorem r0_b1' (c : Dev nD) : W1 m ρ c (Proc.devRef .tc main_v22) = shapeCast S1x64 (val_main_v7 (F := Ideal) (m ((c : Thread nD τ).loc main_arg3))) shapeCasts_S64_S1x64 := by
  show StableHlo.after hostOps0 (W0 m ρ c) (Proc.devRef .tc main_v22) = _
  after_results_simp
  all_goals rfl
/-- The first bias as a row: the host casts it, the reference broadcasts it; one row either way. -/
theorem r0_b1 (c : Dev nD) : W1 m ρ c (Proc.devRef .tc main_v22) = val_main_v24 (F := Ideal) (m ((c : Thread nD τ).loc main_arg3)) :=
  (r0_b1' m ρ c).trans (broadcastInDim_row_eq_shapeCast _ _ _).symm
theorem r0_b2' (c : Dev nD) : W1 m ρ c (Proc.devRef .tc main_v23) = shapeCast S1x64 (val_main_v11 (F := Ideal) (m ((c : Thread nD τ).loc main_arg5))) shapeCasts_S64_S1x64 := by
  show StableHlo.after hostOps0 (W0 m ρ c) (Proc.devRef .tc main_v23) = _
  after_results_simp
  all_goals rfl
theorem r0_b2 (c : Dev nD) : W1 m ρ c (Proc.devRef .tc main_v23) = val_main_v29 (F := Ideal) (m ((c : Thread nD τ).loc main_arg5)) :=
  (r0_b2' m ρ c).trans (broadcastInDim_row_eq_shapeCast _ _ _).symm

/-! ## After the first kernel -/

theorem w2_v1 (c : Dev nD) : W2 m ρ c (Proc.devRef .tc main_v1) = val_main_v1 (F := Ideal) (m ((c : Thread nD τ).loc main_arg1)) :=
  (W2_of_ne m ρ c main_v1 (by decide)).trans (w1_v1 m ρ c)
theorem w2_v3 (c : Dev nD) : W2 m ρ c (Proc.devRef .tc main_v3) = val_main_v3 (F := Ideal) (m ((c : Thread nD τ).loc main_arg1)) :=
  (W2_of_ne m ρ c main_v3 (by decide)).trans (w1_v3 m ρ c)
theorem w2_arg2 (c : Dev nD) : W2 m ρ c (Proc.devRef .tc main_arg2) = (m ((c : Thread nD τ).loc main_arg2)) :=
  (W2_of_ne m ρ c main_arg2 (by decide)).trans (w1_arg2 m ρ c)
theorem w2_arg3 (c : Dev nD) : W2 m ρ c (Proc.devRef .tc main_arg3) = (m ((c : Thread nD τ).loc main_arg3)) :=
  (W2_of_ne m ρ c main_arg3 (by decide)).trans (w1_arg3 m ρ c)
theorem w2_arg4 (c : Dev nD) : W2 m ρ c (Proc.devRef .tc main_arg4) = (m ((c : Thread nD τ).loc main_arg4)) :=
  (W2_of_ne m ρ c main_arg4 (by decide)).trans (w1_arg4 m ρ c)
theorem w2_arg5 (c : Dev nD) : W2 m ρ c (Proc.devRef .tc main_arg5) = (m ((c : Thread nD τ).loc main_arg5)) :=
  (W2_of_ne m ρ c main_arg5 (by decide)).trans (w1_arg5 m ρ c)
theorem w2_arg6 (c : Dev nD) : W2 m ρ c (Proc.devRef .tc main_arg6) = (m ((c : Thread nD τ).loc main_arg6)) :=
  (W2_of_ne m ρ c main_arg6 (by decide)).trans (w1_arg6 m ρ c)
theorem w2_arg7 (c : Dev nD) : W2 m ρ c (Proc.devRef .tc main_arg7) = (m ((c : Thread nD τ).loc main_arg7)) :=
  (W2_of_ne m ρ c main_arg7 (by decide)).trans (w1_arg7 m ρ c)
/-- The features are an input of the first kernel: it leaves them as it found them. -/
theorem w2_arg0 (c : Dev nD) : W2 m ρ c (Proc.devRef .tc main_arg0) = (m ((c : Thread nD τ).loc main_arg0)) :=
  ((W2_arr m ρ c 1).trans (((dat0 (V1 m ρ) c).arrAt_in 1 rfl _).trans (A_eq0 (V1 m ρ) c 1))).trans (w1_arg0 m ρ c)

/-- THE FIRST LAYER'S RESULT is the reference's. -/
theorem w2_h1 (c : Dev nD) : W2 m ρ c (Proc.devRef .tc main_v24) = val_main_v31 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W2_arr m ρ c 6).trans ((Layer0.arr_eq (V1 m ρ) c).trans ?_)
  rw [ref_h1]
  exact layer_congr (r0_agg m ρ c) (w1_arg0 m ρ c) (r0_w1 m ρ c) (r0_b1 m ρ c) (r0_w2 m ρ c) (r0_b2 m ρ c)

end Cert.KernelIdeal.Chain

end
-- ==== Proof.Layer1.lean ====
/-
  What the second layer's kernel leaves in its result array, at the ideal values, for ANY contents of the buffers when the
  kernel is entered.

  The kernel walks the 100000 rows in ten tiles of 10000. At tile t it reads rows 10000·t … 10000·t + 9999 of the
  neighbourhood sums and of the features, the whole of both weight matrices and both bias rows, and writes the same rows
  of the result. What it computes on a tile is the layer function of the tile's rows (`pay_eq`: two products on the
  matrix unit into zero accumulators, each plus its bias row, a rectifier between them; the roundings to a shorter
  format are the identity at the ideal values). A row of the layer's output depends on that row of its inputs alone, so
  the tile written back is the matching row block of the layer function of the whole arrays (`flushed_eq`); the ten
  tiles cover the array (`arr_eq`).
-/
import proofs.«172555_j16810501996621_1_alg».proof.Proof.Gen.KernelIdeal.Frame
import proofs.«172555_j16810501996621_1_alg».proof.Proof.Spec
import Idealize.ShloMosaic.Lib.Pipeline.Value

noncomputable section

namespace Cert.KernelIdeal.Layer1

open Cert.KernelIdeal Cert.KernelIdeal.Gen Idealize.ShloMosaic Idealize.ShloMosaic.TcCoe Idealize.SL.Sem
open Idealize.ShloMosaic.ValueIdx DenseSpec GinSpec
open Idealize.ShloMosaic.Pipeline (Dat)

theorem hz : (![0, 0] : Fin 2 → Nat) = fun _ => 0 := funext fun a => by fin_cases a <;> rfl

/-- On a tile the kernel computes the layer function of the tile. -/
theorem pay_eq (x0 x1 : Vec Ideal S10000x64 .f32) (x2 : Vec Ideal S64x64 .f32) (x3 : Vec Ideal S1x64 .f32)
    (x4 : Vec Ideal S64x64 .f32) (x5 : Vec Ideal S1x64 .f32) :
    k1_pay1 (F := Ideal) x0 x1 x2 x3 x4 x5 = layer x0 x1 x2 x3 x4 x5 := by
  unfold k1_pay1
  simp only [shapeCast_self]
  rw [show dot_S10000x64_S64x64_S10000x64_1_0_0_1_n_n
    = PlainProduct.plainDims 10000 64 64 dot_S10000x64_S64x64_S10000x64_1_0_0_1_n_n_wf from rfl]
  rw [matmul_bias, matmul_bias]
  rfl

variable (V : (c : Dev nD) → (b : Ref sig .tc) → Buf (Elt Ideal) ((c : Thread nD τ).loc b))

/-- The index maps, decided over the ten tiles: the two row-tiled inputs and the output are at tile t, the weights and the
    bias rows at block zero. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

theorem row_lt (t : Fin cfg1.N) (p : Fin 10000) : t.val * 10000 + p.val < 100000 := by
  have h1 : t.val < 10 := lt_of_lt_of_eq t.isLt N_1
  have h2 := p.isLt
  omega

/-- Tile t of the neighbourhood sums is rows 10000·t … of the array. -/
theorem iblk_0 (c : Dev nD) (t : Fin cfg1.N) (p : Fin 10000) (k : Fin 64) :
    (iblk1 V c 0 t : Vec Ideal S10000x64 .f32) (ix2 p k) = (V c main_v34 : S100000x64.Idx → EReal) (ix2 ⟨t.val * 10000 + p.val, row_lt t p⟩ k) := by
  obtain ⟨e0, e1, -⟩ := idx_facts t
  unfold iblk1
  rw [View.read_apply]
  show (V c main_v34 : S100000x64.Idx → EReal) _ = _
  refine congrArg (V c main_v34 : S100000x64.Idx → EReal) (funext fun a => Fin.ext ?_)
  match a with
  | ⟨0, _⟩ => show win1_0.index t (0 : Fin 2) * 10000 + 1 * p.val = t.val * 10000 + p.val; rw [e0]; omega
  | ⟨1, _⟩ => show win1_0.index t (1 : Fin 2) * 64 + 1 * k.val = k.val; rw [e1]; omega

/-- Tile t of the features is rows 10000·t … of the array. -/
theorem iblk_1 (c : Dev nD) (t : Fin cfg1.N) (p : Fin 10000) (k : Fin 64) :
    (iblk1 V c 1 t : Vec Ideal S10000x64 .f32) (ix2 p k) = (V c main_v24 : S100000x64.Idx → EReal) (ix2 ⟨t.val * 10000 + p.val, row_lt t p⟩ k) := by
  obtain ⟨-, -, e0, e1, -⟩ := idx_facts t
  unfold iblk1
  rw [View.read_apply]
  show (V c main_v24 : S100000x64.Idx → EReal) _ = _
  refine congrArg (V c main_v24 : S100000x64.Idx → EReal) (funext fun a => Fin.ext ?_)
  match a with
  | ⟨0, _⟩ => show win1_1.index t (0 : Fin 2) * 10000 + 1 * p.val = t.val * 10000 + p.val; rw [e0]; omega
  | ⟨1, _⟩ => show win1_1.index t (1 : Fin 2) * 64 + 1 * k.val = k.val; rw [e1]; omega

/-- The first weight matrix is read whole at every tile. -/
theorem iblk_2 (c : Dev nD) (t : Fin cfg1.N) : (iblk1 V c 2 t : Vec Ideal S64x64 .f32) = (V c main_v36 : S64x64.Idx → EReal) := by
  obtain ⟨-, -, -, -, e0, e1, -⟩ := idx_facts t
  funext y
  unfold iblk1
  rw [View.read_apply]
  show (V c main_v36 : S64x64.Idx → EReal) _ = _
  refine congrArg (V c main_v36 : S64x64.Idx → EReal) (funext fun a => Fin.ext ?_)
  match a with
  | ⟨0, _⟩ => show win1_2.index t (0 : Fin 2) * 64 + 1 * (y 0).val = (y 0).val; rw [e0]; omega
  | ⟨1, _⟩ => show win1_2.index t (1 : Fin 2) * 64 + 1 * (y 1).val = (y 1).val; rw [e1]; omega

/-- The first bias row is read whole at every tile. -/
theorem iblk_3 (c : Dev nD) (t : Fin cfg1.N) : (iblk1 V c 3 t : Vec Ideal S1x64 .f32) = (V c main_v43 : S1x64.Idx → EReal) := by
  obtain ⟨-, -, -, -, -, -, e0, e1, -⟩ := idx_facts t
  funext y
  unfold iblk1
  rw [View.read_apply]
  show (V c main_v43 : S1x64.Idx → EReal) _ = _
  refine congrArg (V c main_v43 : S1x64.Idx → EReal) (funext fun a => Fin.ext ?_)
  match a with
  | ⟨0, _⟩ => show win1_3.index t (0 : Fin 2) * 1 + 1 * (y 0).val = (y 0).val; rw [e0]; omega
  | ⟨1, _⟩ => show win1_3.index t (1 : Fin 2) * 64 + 1 * (y 1).val = (y 1).val; rw [e1]; omega

/-- The second weight matrix is read whole at every tile. -/
theorem iblk_4 (c : Dev nD) (t : Fin cfg1.N) : (iblk1 V c 4 t : Vec Ideal S64x64 .f32) = (V c main_v40 : S64x64.Idx → EReal) := by
  obtain ⟨-, -, -, -, -, -, -, -, e0, e1, -⟩ := idx_facts t
  funext y
  unfold iblk1
  rw [View.read_apply]
  show (V c main_v40 : S64x64.Idx → EReal) _ = _
  refine congrArg (V c main_v40 : S64x64.Idx → EReal) (funext fun a => Fin.ext ?_)
  match a with
  | ⟨0, _⟩ => show win1_4.index t (0 : Fin 2) * 64 + 1 * (y 0).val = (y 0).val; rw [e0]; omega
  | ⟨1, _⟩ => show win1_4.index t (1 : Fin 2) * 64 + 1 * (y 1).val = (y 1).val; rw [e1]; omega

/-- The second bias row is read whole at every tile. -/
theorem iblk_5 (c : Dev nD) (t : Fin cfg1.N) : (iblk1 V c 5 t : Vec Ideal S1x64 .f32) = (V c main_v44 : S1x64.Idx → EReal) := by
  obtain ⟨-, -, -, -, -, -, -, -, -, -, e0, e1, -⟩ := idx_facts t
  funext y
  unfold iblk1
  rw [View.read_apply]
  show (V c main_v44 : S1x64.Idx → EReal) _ = _
  refine congrArg (V c main_v44 : S1x64.Idx → EReal) (funext fun a => Fin.ext ?_)
  match a with
  | ⟨0, _⟩ => show win1_5.index t (0 : Fin 2) * 1 + 1 * (y 0).val = (y 0).val; rw [e0]; omega
  | ⟨1, _⟩ => show win1_5.index t (1 : Fin 2) * 64 + 1 * (y 1).val = (y 1).val; rw [e1]; omega

/-- The layer function of the arrays as the kernel finds them. -/
abbrev out (c : Dev nD) : S100000x64.Idx → EReal :=
  layer (V c main_v34 : S100000x64.Idx → EReal) (V c main_v24 : S100000x64.Idx → EReal) (V c main_v36 : S64x64.Idx → EReal)
    (V c main_v43 : S1x64.Idx → EReal) (V c main_v40 : S64x64.Idx → EReal) (V c main_v44 : S1x64.Idx → EReal)

/-- What tile t writes back is tile t of the layer function of the whole arrays. -/
theorem flushed_eq (c : Dev nD) (t : Fin cfg1.N) :
    (dat1 V c).flushed 6 t = ((cfg1.win 6).blk t).view.read (Elt Ideal) (out V c) := by
  show (cfg1.win 6).cut (grid1.coords t) ((dat1 V c).after 6 t) = _
  rw [after1_6]
  unfold out1_6
  rw [View.canon_unit_zero hz]
  simp only [View.ld_unit_zero (S := S10000x64) hz, View.ld_unit_zero (S := S64x64) hz, View.ld_unit_zero (S := S1x64) hz]
  rw [pay_eq, iblk_2 V c t, iblk_3 V c t, iblk_4 V c t, iblk_5 V c t]
  obtain ⟨-, -, -, -, -, -, -, -, -, -, -, -, e0, e1⟩ := idx_facts t
  refine funext fun (j : S10000x64.Idx) => ?_
  obtain ⟨p, q, rfl⟩ : ∃ (p : Fin 10000) (q : Fin 64), j = ix2 p q := ⟨j 0, j 1, eq_ix2 j⟩
  show layer (iblk1 V c 0 t : Vec Ideal S10000x64 .f32) (iblk1 V c 1 t : Vec Ideal S10000x64 .f32) _ _ _ _ (ix2 p q)
    = out V c (((cfg1.win 6).blk t).view.emb (ix2 p q))
  have hemb : ((cfg1.win 6).blk t).view.emb (ix2 p q) = (ix2 (⟨t.val * 10000 + p.val, row_lt t p⟩ : Fin 100000) q : S100000x64.Idx) := by
    refine funext fun a => Fin.ext ?_
    match a with
    | ⟨0, _⟩ => show win1_6.index t (0 : Fin 2) * 10000 + 1 * p.val = t.val * 10000 + p.val; rw [e0]; omega
    | ⟨1, _⟩ => show win1_6.index t (1 : Fin 2) * 64 + 1 * q.val = q.val; rw [e1]; omega
  rw [hemb]
  exact layer_rows _ _ _ _ _ _ _ _ (⟨t.val * 10000 + p.val, row_lt t p⟩ : Fin 100000) p
    (fun k => iblk_0 V c t p k) (fun k => iblk_1 V c t p k) q

/-- An index of the array is in tile t iff each coordinate is in the tile's range. -/
theorem mem_blk (t : Fin cfg1.N) (i : S100000x64.Idx) :
    i ∈ ((cfg1.win 6).blk t).view.set ↔ ∀ a : Fin 2, win1_6.index t a * S10000x64.size a ≤ (i a).val ∧ (i a).val < win1_6.index t a * S10000x64.size a + S10000x64.size a := by
  show i ∈ ((View.whole main_v45).slice (win1_6.rect t)).set ↔ _
  rw [View.set_slice_whole, Rect.mem_set_unit]
  exact Iff.rfl

/-- THE RESULT ARRAY after the kernel: the layer function of the arrays as the kernel found them. -/
theorem arr_eq (c : Dev nD) : (dat1 V c).arrAt 6 cfg1.N = out V c :=
  (dat1 V c).arrAt_eq_of_cover 6 (out V c) (fun t _ => flushed_eq V c t) fun i => by
    have hi0 : (i 0).val < 100000 := (i 0).isLt
    have hi1 : (i 1).val < 64 := (i 1).isLt
    obtain ⟨t, ht⟩ : ∃ t : Fin cfg1.N, t.val = (i 0).val / 10000 :=
      ⟨⟨(i 0).val / 10000, lt_of_lt_of_eq (by omega : (i 0).val / 10000 < 10) N_1.symm⟩, rfl⟩
    obtain ⟨-, -, -, -, -, -, -, -, -, -, -, -, e0, e1⟩ := idx_facts t
    refine ⟨t, flush1_6 t, ?_⟩
    rw [mem_blk]
    intro a
    match a with
    | ⟨0, _⟩ => show win1_6.index t (0 : Fin 2) * 10000 ≤ (i 0).val ∧ (i 0).val < win1_6.index t (0 : Fin 2) * 10000 + 10000; rw [e0]; omega
    | ⟨1, _⟩ => show win1_6.index t (1 : Fin 2) * 64 ≤ (i 1).val ∧ (i 1).val < win1_6.index t (1 : Fin 2) * 64 + 64; rw [e1]; omega

end Cert.KernelIdeal.Layer1

end
-- ==== Proof.Chain2.lean ====
/-
  The buffers' contents up to the second layer's result.

  Between the first and the second kernel the host gathers the source rows of the first layer's result and adds them into
  the destination rows (the second neighbourhood sums), and slices the second layer's weights and biases: the reference's
  operations again, now applied to a first-layer result that is the reference's. The second kernel leaves the layer
  function of these in its result array: the reference's second layer (`ref_h2`).
-/
import proofs.«172555_j16810501996621_1_alg».proof.Proof.Chain1
import proofs.«172555_j16810501996621_1_alg».proof.Proof.Layer1

noncomputable section

namespace Cert.KernelIdeal.Chain

open Cert.KernelIdeal Cert.KernelIdeal.Gen Idealize.ShloMosaic Idealize.ShloMosaic.TcCoe Idealize.SL.Sem
open Idealize.ShloMosaic.StableHlo
open Idealize.ShloMosaic.Pipeline (Dat)
open Cert.ReferenceIdeal.Read Cert.ReferenceIdeal.Layers DenseSpec GinSpec Concat4

variable (m : (ℓ : Loc nD τ sig) → Buf (Elt Ideal) ℓ) (ρ : Dev nD → PrngReg)

/-! ## Before the second kernel -/

theorem w3_v1 (c : Dev nD) : W3 m ρ c (Proc.devRef .tc main_v1) = val_main_v1 (F := Ideal) (m ((c : Thread nD τ).loc main_arg1)) := by
  show StableHlo.after hostOps1 (W2 m ρ c) (Proc.devRef .tc main_v1) = _
  after_results_simp
  exact w2_v1 m ρ c

theorem w3_v3 (c : Dev nD) : W3 m ρ c (Proc.devRef .tc main_v3) = val_main_v3 (F := Ideal) (m ((c : Thread nD τ).loc main_arg1)) := by
  show StableHlo.after hostOps1 (W2 m ρ c) (Proc.devRef .tc main_v3) = _
  after_results_simp
  exact w2_v3 m ρ c

theorem w3_arg0 (c : Dev nD) : W3 m ρ c (Proc.devRef .tc main_arg0) = (m ((c : Thread nD τ).loc main_arg0)) := by
  show StableHlo.after hostOps1 (W2 m ρ c) (Proc.devRef .tc main_arg0) = _
  after_results_simp
  exact w2_arg0 m ρ c

theorem w3_arg2 (c : Dev nD) : W3 m ρ c (Proc.devRef .tc main_arg2) = (m ((c : Thread nD τ).loc main_arg2)) := by
  show StableHlo.after hostOps1 (W2 m ρ c) (Proc.devRef .tc main_arg2) = _
  after_results_simp
  exact w2_arg2 m ρ c

theorem w3_arg3 (c : Dev nD) : W3 m ρ c (Proc.devRef .tc main_arg3) = (m ((c : Thread nD τ).loc main_arg3)) := by
  show StableHlo.after hostOps1 (W2 m ρ c) (Proc.devRef .tc main_arg3) = _
  after_results_simp
  exact w2_arg3 m ρ c

theorem w3_arg4 (c : Dev nD) : W3 m ρ c (Proc.devRef .tc main_arg4) = (m ((c : Thread nD τ).loc main_arg4)) := by
  show StableHlo.after hostOps1 (W2 m ρ c) (Proc.devRef .tc main_arg4) = _
  after_results_simp
  exact w2_arg4 m ρ c

theorem w3_arg5 (c : Dev nD) : W3 m ρ c (Proc.devRef .tc main_arg5) = (m ((c : Thread nD τ).loc main_arg5)) := by
  show StableHlo.after hostOps1 (W2 m ρ c) (Proc.devRef .tc main_arg5) = _
  after_results_simp
  exact w2_arg5 m ρ c

theorem w3_arg6 (c : Dev nD) : W3 m ρ c (Proc.devRef .tc main_arg6) = (m ((c : Thread nD τ).loc main_arg6)) := by
  show StableHlo.after hostOps1 (W2 m ρ c) (Proc.devRef .tc main_arg6) = _
  after_results_simp
  exact w2_arg6 m ρ c

theorem w3_arg7 (c : Dev nD) : W3 m ρ c (Proc.devRef .tc main_arg7) = (m ((c : Thread nD τ).loc main_arg7)) := by
  show StableHlo.after hostOps1 (W2 m ρ c) (Proc.devRef .tc main_arg7) = _
  after_results_simp
  exact w2_arg7 m ρ c

theorem r1_h (c : Dev nD) : W3 m ρ c (Proc.devRef .tc main_v24) = val_main_v31 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  show StableHlo.after hostOps1 (W2 m ρ c) (Proc.devRef .tc main_v24) = _
  after_results_simp
  exact w2_h1 m ρ c

/-- The neighbourhood sums of the first layer's result. -/
theorem r1_agg (c : Dev nD) : W3 m ρ c (Proc.devRef .tc main_v34) = val_main_v49 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  show StableHlo.after hostOps1 (W2 m ρ c) (Proc.devRef .tc main_v34) = _
  after_results_simp
  rw [w2_v1 m ρ c, w2_v3 m ρ c, w2_h1 m ρ c]
  rfl

theorem r1_w1 (c : Dev nD) : W3 m ρ c (Proc.devRef .tc main_v36) = val_main_v33 (F := Ideal) (m ((c : Thread nD τ).loc main_arg2)) := by
  show StableHlo.after hostOps1 (W2 m ρ c) (Proc.devRef .tc main_v36) = _
  after_results_simp
  rw [w2_arg2 m ρ c]
  rfl

theorem r1_w2 (c : Dev nD) : W3 m ρ c (Proc.devRef .tc main_v40) = val_main_v37 (F := Ideal) (m ((c : Thread nD τ).loc main_arg4)) := by
  show StableHlo.after hostOps1 (W2 m ρ c) (Proc.devRef .tc main_v40) = _
  after_results_simp
  rw [w2_arg4 m ρ c]
  rfl

theorem r1_b1' (c : Dev nD) : W3 m ρ c (Proc.devRef .tc main_v43) = shapeCast S1x64 (val_main_v35 (F := Ideal) (m ((c : Thread nD τ).loc main_arg3))) shapeCasts_S64_S1x64 := by
  show StableHlo.after hostOps1 (W2 m ρ c) (Proc.devRef .tc main_v43) = _
  after_results_simp
  rw [w2_arg3 m ρ c]
  rfl

theorem r1_b1 (c : Dev nD) : W3 m ρ c (Proc.devRef .tc main_v43) = val_main_v52 (F := Ideal) (m ((c : Thread nD τ).loc main_arg3)) :=
  (r1_b1' m ρ c).trans (broadcastInDim_row_eq_shapeCast _ _ _).symm
theorem r1_b2' (c : Dev nD) : W3 m ρ c (Proc.devRef .tc main_v44) = shapeCast S1x64 (val_main_v39 (F := Ideal) (m ((c : Thread nD τ).loc main_arg5))) shapeCasts_S64_S1x64 := by
  show StableHlo.after hostOps1 (W2 m ρ c) (Proc.devRef .tc main_v44) = _
  after_results_simp
  rw [w2_arg5 m ρ c]
  rfl

theorem r1_b2 (c : Dev nD) : W3 m ρ c (Proc.devRef .tc main_v44) = val_main_v57 (F := Ideal) (m ((c : Thread nD τ).loc main_arg5)) :=
  (r1_b2' m ρ c).trans (broadcastInDim_row_eq_shapeCast _ _ _).symm

/-! ## After the second kernel -/

theorem w4_v1 (c : Dev nD) : W4 m ρ c (Proc.devRef .tc main_v1) = val_main_v1 (F := Ideal) (m ((c : Thread nD τ).loc main_arg1)) :=
  (W4_of_ne m ρ c main_v1 (by decide)).trans (w3_v1 m ρ c)
theorem w4_v3 (c : Dev nD) : W4 m ρ c (Proc.devRef .tc main_v3) = val_main_v3 (F := Ideal) (m ((c : Thread nD τ).loc main_arg1)) :=
  (W4_of_ne m ρ c main_v3 (by decide)).trans (w3_v3 m ρ c)
theorem w4_arg0 (c : Dev nD) : W4 m ρ c (Proc.devRef .tc main_arg0) = (m ((c : Thread nD τ).loc main_arg0)) :=
  (W4_of_ne m ρ c main_arg0 (by decide)).trans (w3_arg0 m ρ c)
theorem w4_arg2 (c : Dev nD) : W4 m ρ c (Proc.devRef .tc main_arg2) = (m ((c : Thread nD τ).loc main_arg2)) :=
  (W4_of_ne m ρ c main_arg2 (by decide)).trans (w3_arg2 m ρ c)
theorem w4_arg3 (c : Dev nD) : W4 m ρ c (Proc.devRef .tc main_arg3) = (m ((c : Thread nD τ).loc main_arg3)) :=
  (W4_of_ne m ρ c main_arg3 (by decide)).trans (w3_arg3 m ρ c)
theorem w4_arg4 (c : Dev nD) : W4 m ρ c (Proc.devRef .tc main_arg4) = (m ((c : Thread nD τ).loc main_arg4)) :=
  (W4_of_ne m ρ c main_arg4 (by decide)).trans (w3_arg4 m ρ c)
theorem w4_arg5 (c : Dev nD) : W4 m ρ c (Proc.devRef .tc main_arg5) = (m ((c : Thread nD τ).loc main_arg5)) :=
  (W4_of_ne m ρ c main_arg5 (by decide)).trans (w3_arg5 m ρ c)
theorem w4_arg6 (c : Dev nD) : W4 m ρ c (Proc.devRef .tc main_arg6) = (m ((c : Thread nD τ).loc main_arg6)) :=
  (W4_of_ne m ρ c main_arg6 (by decide)).trans (w3_arg6 m ρ c)
theorem w4_arg7 (c : Dev nD) : W4 m ρ c (Proc.devRef .tc main_arg7) = (m ((c : Thread nD τ).loc main_arg7)) :=
  (W4_of_ne m ρ c main_arg7 (by decide)).trans (w3_arg7 m ρ c)
/-- The first layer's result is an input of the second kernel: it leaves it as it found it. -/
theorem w4_h1 (c : Dev nD) : W4 m ρ c (Proc.devRef .tc main_v24) = val_main_v31 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  ((W4_arr m ρ c 1).trans (((dat1 (V3 m ρ) c).arrAt_in 1 rfl _).trans (A_eq1 (V3 m ρ) c 1))).trans (r1_h m ρ c)

/-- THE SECOND LAYER'S RESULT is the reference's. -/
theorem w4_h2 (c : Dev nD) : W4 m ρ c (Proc.devRef .tc main_v45) = val_main_v59 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W4_arr m ρ c 6).trans ((Layer1.arr_eq (V3 m ρ) c).trans ?_)
  rw [ref_h2]
  exact layer_congr (r1_agg m ρ c) (r1_h m ρ c) (r1_w1 m ρ c) (r1_b1 m ρ c) (r1_w2 m ρ c) (r1_b2 m ρ c)

end Cert.KernelIdeal.Chain

end
-- ==== Proof.Layer2.lean ====
/-
  What the third layer's kernel leaves in its result array, at the ideal values, for ANY contents of the buffers when the
  kernel is entered.

  The kernel walks the 100000 rows in ten tiles of 10000. At tile t it reads rows 10000·t … 10000·t + 9999 of the
  neighbourhood sums and of the features, the whole of both weight matrices and both bias rows, and writes the same rows
  of the result. What it computes on a tile is the layer function of the tile's rows (`pay_eq`: two products on the
  matrix unit into zero accumulators, each plus its bias row, a rectifier between them; the roundings to a shorter
  format are the identity at the ideal values). A row of the layer's output depends on that row of its inputs alone, so
  the tile written back is the matching row block of the layer function of the whole arrays (`flushed_eq`); the ten
  tiles cover the array (`arr_eq`).
-/
import proofs.«172555_j16810501996621_1_alg».proof.Proof.Gen.KernelIdeal.Frame
import proofs.«172555_j16810501996621_1_alg».proof.Proof.Spec
import Idealize.ShloMosaic.Lib.Pipeline.Value

noncomputable section

namespace Cert.KernelIdeal.Layer2

open Cert.KernelIdeal Cert.KernelIdeal.Gen Idealize.ShloMosaic Idealize.ShloMosaic.TcCoe Idealize.SL.Sem
open Idealize.ShloMosaic.ValueIdx DenseSpec GinSpec
open Idealize.ShloMosaic.Pipeline (Dat)

theorem hz : (![0, 0] : Fin 2 → Nat) = fun _ => 0 := funext fun a => by fin_cases a <;> rfl

/-- On a tile the kernel computes the layer function of the tile. -/
theorem pay_eq (x0 x1 : Vec Ideal S10000x64 .f32) (x2 : Vec Ideal S64x64 .f32) (x3 : Vec Ideal S1x64 .f32)
    (x4 : Vec Ideal S64x64 .f32) (x5 : Vec Ideal S1x64 .f32) :
    k2_pay1 (F := Ideal) x0 x1 x2 x3 x4 x5 = layer x0 x1 x2 x3 x4 x5 := by
  unfold k2_pay1
  simp only [shapeCast_self]
  rw [show dot_S10000x64_S64x64_S10000x64_1_0_0_1_n_n
    = PlainProduct.plainDims 10000 64 64 dot_S10000x64_S64x64_S10000x64_1_0_0_1_n_n_wf from rfl]
  rw [matmul_bias, matmul_bias]
  rfl

variable (V : (c : Dev nD) → (b : Ref sig .tc) → Buf (Elt Ideal) ((c : Thread nD τ).loc b))

/-- The index maps, decided over the ten tiles: the two row-tiled inputs and the output are at tile t, the weights and the
    bias rows at block zero. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

theorem row_lt (t : Fin cfg2.N) (p : Fin 10000) : t.val * 10000 + p.val < 100000 := by
  have h1 : t.val < 10 := lt_of_lt_of_eq t.isLt N_2
  have h2 := p.isLt
  omega

/-- Tile t of the neighbourhood sums is rows 10000·t … of the array. -/
theorem iblk_0 (c : Dev nD) (t : Fin cfg2.N) (p : Fin 10000) (k : Fin 64) :
    (iblk2 V c 0 t : Vec Ideal S10000x64 .f32) (ix2 p k) = (V c main_v55 : S100000x64.Idx → EReal) (ix2 ⟨t.val * 10000 + p.val, row_lt t p⟩ k) := by
  obtain ⟨e0, e1, -⟩ := idx_facts t
  unfold iblk2
  rw [View.read_apply]
  show (V c main_v55 : S100000x64.Idx → EReal) _ = _
  refine congrArg (V c main_v55 : S100000x64.Idx → EReal) (funext fun a => Fin.ext ?_)
  match a with
  | ⟨0, _⟩ => show win2_0.index t (0 : Fin 2) * 10000 + 1 * p.val = t.val * 10000 + p.val; rw [e0]; omega
  | ⟨1, _⟩ => show win2_0.index t (1 : Fin 2) * 64 + 1 * k.val = k.val; rw [e1]; omega

/-- Tile t of the features is rows 10000·t … of the array. -/
theorem iblk_1 (c : Dev nD) (t : Fin cfg2.N) (p : Fin 10000) (k : Fin 64) :
    (iblk2 V c 1 t : Vec Ideal S10000x64 .f32) (ix2 p k) = (V c main_v45 : S100000x64.Idx → EReal) (ix2 ⟨t.val * 10000 + p.val, row_lt t p⟩ k) := by
  obtain ⟨-, -, e0, e1, -⟩ := idx_facts t
  unfold iblk2
  rw [View.read_apply]
  show (V c main_v45 : S100000x64.Idx → EReal) _ = _
  refine congrArg (V c main_v45 : S100000x64.Idx → EReal) (funext fun a => Fin.ext ?_)
  match a with
  | ⟨0, _⟩ => show win2_1.index t (0 : Fin 2) * 10000 + 1 * p.val = t.val * 10000 + p.val; rw [e0]; omega
  | ⟨1, _⟩ => show win2_1.index t (1 : Fin 2) * 64 + 1 * k.val = k.val; rw [e1]; omega

/-- The first weight matrix is read whole at every tile. -/
theorem iblk_2 (c : Dev nD) (t : Fin cfg2.N) : (iblk2 V c 2 t : Vec Ideal S64x64 .f32) = (V c main_v57 : S64x64.Idx → EReal) := by
  obtain ⟨-, -, -, -, e0, e1, -⟩ := idx_facts t
  funext y
  unfold iblk2
  rw [View.read_apply]
  show (V c main_v57 : S64x64.Idx → EReal) _ = _
  refine congrArg (V c main_v57 : S64x64.Idx → EReal) (funext fun a => Fin.ext ?_)
  match a with
  | ⟨0, _⟩ => show win2_2.index t (0 : Fin 2) * 64 + 1 * (y 0).val = (y 0).val; rw [e0]; omega
  | ⟨1, _⟩ => show win2_2.index t (1 : Fin 2) * 64 + 1 * (y 1).val = (y 1).val; rw [e1]; omega

/-- The first bias row is read whole at every tile. -/
theorem iblk_3 (c : Dev nD) (t : Fin cfg2.N) : (iblk2 V c 3 t : Vec Ideal S1x64 .f32) = (V c main_v64 : S1x64.Idx → EReal) := by
  obtain ⟨-, -, -, -, -, -, e0, e1, -⟩ := idx_facts t
  funext y
  unfold iblk2
  rw [View.read_apply]
  show (V c main_v64 : S1x64.Idx → EReal) _ = _
  refine congrArg (V c main_v64 : S1x64.Idx → EReal) (funext fun a => Fin.ext ?_)
  match a with
  | ⟨0, _⟩ => show win2_3.index t (0 : Fin 2) * 1 + 1 * (y 0).val = (y 0).val; rw [e0]; omega
  | ⟨1, _⟩ => show win2_3.index t (1 : Fin 2) * 64 + 1 * (y 1).val = (y 1).val; rw [e1]; omega

/-- The second weight matrix is read whole at every tile. -/
theorem iblk_4 (c : Dev nD) (t : Fin cfg2.N) : (iblk2 V c 4 t : Vec Ideal S64x64 .f32) = (V c main_v61 : S64x64.Idx → EReal) := by
  obtain ⟨-, -, -, -, -, -, -, -, e0, e1, -⟩ := idx_facts t
  funext y
  unfold iblk2
  rw [View.read_apply]
  show (V c main_v61 : S64x64.Idx → EReal) _ = _
  refine congrArg (V c main_v61 : S64x64.Idx → EReal) (funext fun a => Fin.ext ?_)
  match a with
  | ⟨0, _⟩ => show win2_4.index t (0 : Fin 2) * 64 + 1 * (y 0).val = (y 0).val; rw [e0]; omega
  | ⟨1, _⟩ => show win2_4.index t (1 : Fin 2) * 64 + 1 * (y 1).val = (y 1).val; rw [e1]; omega

/-- The second bias row is read whole at every tile. -/
theorem iblk_5 (c : Dev nD) (t : Fin cfg2.N) : (iblk2 V c 5 t : Vec Ideal S1x64 .f32) = (V c main_v65 : S1x64.Idx → EReal) := by
  obtain ⟨-, -, -, -, -, -, -, -, -, -, e0, e1, -⟩ := idx_facts t
  funext y
  unfold iblk2
  rw [View.read_apply]
  show (V c main_v65 : S1x64.Idx → EReal) _ = _
  refine congrArg (V c main_v65 : S1x64.Idx → EReal) (funext fun a => Fin.ext ?_)
  match a with
  | ⟨0, _⟩ => show win2_5.index t (0 : Fin 2) * 1 + 1 * (y 0).val = (y 0).val; rw [e0]; omega
  | ⟨1, _⟩ => show win2_5.index t (1 : Fin 2) * 64 + 1 * (y 1).val = (y 1).val; rw [e1]; omega

/-- The layer function of the arrays as the kernel finds them. -/
abbrev out (c : Dev nD) : S100000x64.Idx → EReal :=
  layer (V c main_v55 : S100000x64.Idx → EReal) (V c main_v45 : S100000x64.Idx → EReal) (V c main_v57 : S64x64.Idx → EReal)
    (V c main_v64 : S1x64.Idx → EReal) (V c main_v61 : S64x64.Idx → EReal) (V c main_v65 : S1x64.Idx → EReal)

/-- What tile t writes back is tile t of the layer function of the whole arrays. -/
theorem flushed_eq (c : Dev nD) (t : Fin cfg2.N) :
    (dat2 V c).flushed 6 t = ((cfg2.win 6).blk t).view.read (Elt Ideal) (out V c) := by
  show (cfg2.win 6).cut (grid2.coords t) ((dat2 V c).after 6 t) = _
  rw [after2_6]
  unfold out2_6
  rw [View.canon_unit_zero hz]
  simp only [View.ld_unit_zero (S := S10000x64) hz, View.ld_unit_zero (S := S64x64) hz, View.ld_unit_zero (S := S1x64) hz]
  rw [pay_eq, iblk_2 V c t, iblk_3 V c t, iblk_4 V c t, iblk_5 V c t]
  obtain ⟨-, -, -, -, -, -, -, -, -, -, -, -, e0, e1⟩ := idx_facts t
  refine funext fun (j : S10000x64.Idx) => ?_
  obtain ⟨p, q, rfl⟩ : ∃ (p : Fin 10000) (q : Fin 64), j = ix2 p q := ⟨j 0, j 1, eq_ix2 j⟩
  show layer (iblk2 V c 0 t : Vec Ideal S10000x64 .f32) (iblk2 V c 1 t : Vec Ideal S10000x64 .f32) _ _ _ _ (ix2 p q)
    = out V c (((cfg2.win 6).blk t).view.emb (ix2 p q))
  have hemb : ((cfg2.win 6).blk t).view.emb (ix2 p q) = (ix2 (⟨t.val * 10000 + p.val, row_lt t p⟩ : Fin 100000) q : S100000x64.Idx) := by
    refine funext fun a => Fin.ext ?_
    match a with
    | ⟨0, _⟩ => show win2_6.index t (0 : Fin 2) * 10000 + 1 * p.val = t.val * 10000 + p.val; rw [e0]; omega
    | ⟨1, _⟩ => show win2_6.index t (1 : Fin 2) * 64 + 1 * q.val = q.val; rw [e1]; omega
  rw [hemb]
  exact layer_rows _ _ _ _ _ _ _ _ (⟨t.val * 10000 + p.val, row_lt t p⟩ : Fin 100000) p
    (fun k => iblk_0 V c t p k) (fun k => iblk_1 V c t p k) q

/-- An index of the array is in tile t iff each coordinate is in the tile's range. -/
theorem mem_blk (t : Fin cfg2.N) (i : S100000x64.Idx) :
    i ∈ ((cfg2.win 6).blk t).view.set ↔ ∀ a : Fin 2, win2_6.index t a * S10000x64.size a ≤ (i a).val ∧ (i a).val < win2_6.index t a * S10000x64.size a + S10000x64.size a := by
  show i ∈ ((View.whole main_v66).slice (win2_6.rect t)).set ↔ _
  rw [View.set_slice_whole, Rect.mem_set_unit]
  exact Iff.rfl

/-- THE RESULT ARRAY after the kernel: the layer function of the arrays as the kernel found them. -/
theorem arr_eq (c : Dev nD) : (dat2 V c).arrAt 6 cfg2.N = out V c :=
  (dat2 V c).arrAt_eq_of_cover 6 (out V c) (fun t _ => flushed_eq V c t) fun i => by
    have hi0 : (i 0).val < 100000 := (i 0).isLt
    have hi1 : (i 1).val < 64 := (i 1).isLt
    obtain ⟨t, ht⟩ : ∃ t : Fin cfg2.N, t.val = (i 0).val / 10000 :=
      ⟨⟨(i 0).val / 10000, lt_of_lt_of_eq (by omega : (i 0).val / 10000 < 10) N_2.symm⟩, rfl⟩
    obtain ⟨-, -, -, -, -, -, -, -, -, -, -, -, e0, e1⟩ := idx_facts t
    refine ⟨t, flush2_6 t, ?_⟩
    rw [mem_blk]
    intro a
    match a with
    | ⟨0, _⟩ => show win2_6.index t (0 : Fin 2) * 10000 ≤ (i 0).val ∧ (i 0).val < win2_6.index t (0 : Fin 2) * 10000 + 10000; rw [e0]; omega
    | ⟨1, _⟩ => show win2_6.index t (1 : Fin 2) * 64 ≤ (i 1).val ∧ (i 1).val < win2_6.index t (1 : Fin 2) * 64 + 64; rw [e1]; omega

end Cert.KernelIdeal.Layer2

end
-- ==== Proof.Chain3.lean ====
/-
  The buffers' contents up to the third layer's result.

  As between the first two kernels: the third neighbourhood sums are the reference's operations applied to the second
  layer's result, the third layer's weights and biases are sliced out of the arguments, and the third kernel leaves the
  layer function of these: the reference's third layer (`ref_h3`).
-/
import proofs.«172555_j16810501996621_1_alg».proof.Proof.Chain2
import proofs.«172555_j16810501996621_1_alg».proof.Proof.Layer2

noncomputable section

namespace Cert.KernelIdeal.Chain

open Cert.KernelIdeal Cert.KernelIdeal.Gen Idealize.ShloMosaic Idealize.ShloMosaic.TcCoe Idealize.SL.Sem
open Idealize.ShloMosaic.StableHlo
open Idealize.ShloMosaic.Pipeline (Dat)
open Cert.ReferenceIdeal.Read Cert.ReferenceIdeal.Layers DenseSpec GinSpec Concat4

variable (m : (ℓ : Loc nD τ sig) → Buf (Elt Ideal) ℓ) (ρ : Dev nD → PrngReg)

/-! ## Before the third kernel -/

theorem w5_arg0 (c : Dev nD) : W5 m ρ c (Proc.devRef .tc main_arg0) = (m ((c : Thread nD τ).loc main_arg0)) := by
  show StableHlo.after hostOps2 (W4 m ρ c) (Proc.devRef .tc main_arg0) = _
  after_results_simp
  exact w4_arg0 m ρ c

theorem w5_arg6 (c : Dev nD) : W5 m ρ c (Proc.devRef .tc main_arg6) = (m ((c : Thread nD τ).loc main_arg6)) := by
  show StableHlo.after hostOps2 (W4 m ρ c) (Proc.devRef .tc main_arg6) = _
  after_results_simp
  exact w4_arg6 m ρ c

theorem w5_arg7 (c : Dev nD) : W5 m ρ c (Proc.devRef .tc main_arg7) = (m ((c : Thread nD τ).loc main_arg7)) := by
  show StableHlo.after hostOps2 (W4 m ρ c) (Proc.devRef .tc main_arg7) = _
  after_results_simp
  exact w4_arg7 m ρ c

theorem w5_h1 (c : Dev nD) : W5 m ρ c (Proc.devRef .tc main_v24) = val_main_v31 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  show StableHlo.after hostOps2 (W4 m ρ c) (Proc.devRef .tc main_v24) = _
  after_results_simp
  exact w4_h1 m ρ c

theorem r2_h (c : Dev nD) : W5 m ρ c (Proc.devRef .tc main_v45) = val_main_v59 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  show StableHlo.after hostOps2 (W4 m ρ c) (Proc.devRef .tc main_v45) = _
  after_results_simp
  exact w4_h2 m ρ c

/-- The neighbourhood sums of the second layer's result. -/
theorem r2_agg (c : Dev nD) : W5 m ρ c (Proc.devRef .tc main_v55) = val_main_v77 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  show StableHlo.after hostOps2 (W4 m ρ c) (Proc.devRef .tc main_v55) = _
  after_results_simp
  rw [w4_v1 m ρ c, w4_v3 m ρ c, w4_h2 m ρ c]
  rfl

theorem r2_w1 (c : Dev nD) : W5 m ρ c (Proc.devRef .tc main_v57) = val_main_v61 (F := Ideal) (m ((c : Thread nD τ).loc main_arg2)) := by
  show StableHlo.after hostOps2 (W4 m ρ c) (Proc.devRef .tc main_v57) = _
  after_results_simp
  rw [w4_arg2 m ρ c]
  rfl

theorem r2_w2 (c : Dev nD) : W5 m ρ c (Proc.devRef .tc main_v61) = val_main_v65 (F := Ideal) (m ((c : Thread nD τ).loc main_arg4)) := by
  show StableHlo.after hostOps2 (W4 m ρ c) (Proc.devRef .tc main_v61) = _
  after_results_simp
  rw [w4_arg4 m ρ c]
  rfl

theorem r2_b1' (c : Dev nD) : W5 m ρ c (Proc.devRef .tc main_v64) = shapeCast S1x64 (val_main_v63 (F := Ideal) (m ((c : Thread nD τ).loc main_arg3))) shapeCasts_S64_S1x64 := by
  show StableHlo.after hostOps2 (W4 m ρ c) (Proc.devRef .tc main_v64) = _
  after_results_simp
  rw [w4_arg3 m ρ c]
  rfl

theorem r2_b1 (c : Dev nD) : W5 m ρ c (Proc.devRef .tc main_v64) = val_main_v80 (F := Ideal) (m ((c : Thread nD τ).loc main_arg3)) :=
  (r2_b1' m ρ c).trans (broadcastInDim_row_eq_shapeCast _ _ _).symm
theorem r2_b2' (c : Dev nD) : W5 m ρ c (Proc.devRef .tc main_v65) = shapeCast S1x64 (val_main_v67 (F := Ideal) (m ((c : Thread nD τ).loc main_arg5))) shapeCasts_S64_S1x64 := by
  show StableHlo.after hostOps2 (W4 m ρ c) (Proc.devRef .tc main_v65) = _
  after_results_simp
  rw [w4_arg5 m ρ c]
  rfl

theorem r2_b2 (c : Dev nD) : W5 m ρ c (Proc.devRef .tc main_v65) = val_main_v85 (F := Ideal) (m ((c : Thread nD τ).loc main_arg5)) :=
  (r2_b2' m ρ c).trans (broadcastInDim_row_eq_shapeCast _ _ _).symm

/-! ## After the third kernel -/

theorem w6_arg0 (c : Dev nD) : W6 m ρ c (Proc.devRef .tc main_arg0) = (m ((c : Thread nD τ).loc main_arg0)) :=
  (W6_of_ne m ρ c main_arg0 (by decide)).trans (w5_arg0 m ρ c)
theorem w6_arg6 (c : Dev nD) : W6 m ρ c (Proc.devRef .tc main_arg6) = (m ((c : Thread nD τ).loc main_arg6)) :=
  (W6_of_ne m ρ c main_arg6 (by decide)).trans (w5_arg6 m ρ c)
theorem w6_arg7 (c : Dev nD) : W6 m ρ c (Proc.devRef .tc main_arg7) = (m ((c : Thread nD τ).loc main_arg7)) :=
  (W6_of_ne m ρ c main_arg7 (by decide)).trans (w5_arg7 m ρ c)
theorem w6_h1 (c : Dev nD) : W6 m ρ c (Proc.devRef .tc main_v24) = val_main_v31 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (W6_of_ne m ρ c main_v24 (by decide)).trans (w5_h1 m ρ c)
/-- The second layer's result is an input of the third kernel: it leaves it as it found it. -/
theorem w6_h2 (c : Dev nD) : W6 m ρ c (Proc.devRef .tc main_v45) = val_main_v59 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  ((W6_arr m ρ c 1).trans (((dat2 (V5 m ρ) c).arrAt_in 1 rfl _).trans (A_eq2 (V5 m ρ) c 1))).trans (r2_h m ρ c)

/-- THE THIRD LAYER'S RESULT is the reference's. -/
theorem w6_h3 (c : Dev nD) : W6 m ρ c (Proc.devRef .tc main_v66) = val_main_v87 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W6_arr m ρ c 6).trans ((Layer2.arr_eq (V5 m ρ) c).trans ?_)
  rw [ref_h3]
  exact layer_congr (r2_agg m ρ c) (r2_h m ρ c) (r2_w1 m ρ c) (r2_b1 m ρ c) (r2_w2 m ρ c) (r2_b2 m ρ c)

end Cert.KernelIdeal.Chain

end
-- ==== Proof.Final.lean ====
/-
  What the classifier's kernel leaves in its two result arrays, at the ideal values, for ANY contents of the buffers when
  the kernel is entered.

  The kernel walks the 100000 rows in twenty tiles of 5000. At tile t it reads rows 5000·t … of the four feature
  matrices and the whole classifier weights and bias row; it writes the same rows of the joined features (the four
  tiles joined along the columns) and of the classifier's output (one product on the matrix unit into a zero
  accumulator plus the bias row). A row of either result depends on that row of the features alone, so each tile written
  back is the matching row block of the whole-array function, and the twenty tiles cover each array.
-/
import proofs.«172555_j16810501996621_1_alg».proof.Proof.Gen.KernelIdeal.Frame
import proofs.«172555_j16810501996621_1_alg».proof.Proof.Spec
import Idealize.ShloMosaic.Lib.Pipeline.Value

noncomputable section

namespace Cert.KernelIdeal.Final

open Cert.KernelIdeal Cert.KernelIdeal.Gen Idealize.ShloMosaic Idealize.ShloMosaic.TcCoe Idealize.SL.Sem
open Idealize.ShloMosaic.ValueIdx DenseSpec GinSpec Concat4
open Idealize.ShloMosaic.Pipeline (Dat)

theorem hz : (![0, 0] : Fin 2 → Nat) = fun _ => 0 := funext fun a => by fin_cases a <;> rfl

/-- On a tile the kernel's first store is the join of the four feature tiles. -/
theorem pay_cat (x0 x1 x2 x3 : Vec Ideal S5000x64 .f32) : k3_pay1 (F := Ideal) x0 x1 x2 x3 = cat4 x0 x1 x2 x3 := by
  unfold k3_pay1
  simp only [shapeCast_self]
  refine (concatenate_eq_cat4 _ _ _ _ _).trans ?_
  rw [shapeCast_self, shapeCast_self, shapeCast_self]

/-- On a tile the kernel's second store is the classifier of the four feature tiles. -/
theorem pay_pred (x0 x1 x2 x3 : Vec Ideal S5000x64 .f32) (x4 : Vec Ideal S256x40 .f32) (x5 : Vec Ideal S1x40 .f32) :
    k3_pay2 (F := Ideal) x0 x1 x2 x3 x4 x5 = classify x0 x1 x2 x3 x4 x5 := by
  unfold k3_pay2
  simp only [shapeCast_self]
  rw [pay_cat]
  rw [show dot_S5000x256_S256x40_S5000x40_1_0_0_1_n_n
    = PlainProduct.plainDims 5000 256 40 dot_S5000x256_S256x40_S5000x40_1_0_0_1_n_n_wf from rfl]
  rw [matmul_bias]
  rfl

variable (V : (c : Dev nD) → (b : Ref sig .tc) → Buf (Elt Ideal) ((c : Thread nD τ).loc b))

/-- The index maps, decided over the twenty tiles. -/
theorem idx_facts : ∀ t : Fin cfg3.N, (win3_0.index t (0 : Fin 2) = t.val ∧ win3_0.index t (1 : Fin 2) = 0)
    ∧ (win3_1.index t (0 : Fin 2) = t.val ∧ win3_1.index t (1 : Fin 2) = 0)
    ∧ (win3_2.index t (0 : Fin 2) = t.val ∧ win3_2.index t (1 : Fin 2) = 0)
    ∧ (win3_3.index t (0 : Fin 2) = t.val ∧ win3_3.index t (1 : Fin 2) = 0)
    ∧ (win3_4.index t (0 : Fin 2) = 0 ∧ win3_4.index t (1 : Fin 2) = 0)
    ∧ (win3_5.index t (0 : Fin 2) = 0 ∧ win3_5.index t (1 : Fin 2) = 0)
    ∧ (win3_6.index t (0 : Fin 2) = t.val ∧ win3_6.index t (1 : Fin 2) = 0)
    ∧ (win3_7.index t (0 : Fin 2) = t.val ∧ win3_7.index t (1 : Fin 2) = 0) :=
  (by decide +kernel : ∀ t : Fin grid3.N, _)

theorem row_lt (t : Fin cfg3.N) (p : Fin 5000) : t.val * 5000 + p.val < 100000 := by
  have h1 : t.val < 20 := lt_of_lt_of_eq t.isLt N_3
  have h2 := p.isLt
  omega

/-- Tile t of window 0 is rows 5000·t … of its array. -/
theorem iblk_0 (c : Dev nD) (t : Fin cfg3.N) (p : Fin 5000) (k : Fin 64) :
    (iblk3 V c 0 t : Vec Ideal S5000x64 .f32) (ix2 p k) = (V c main_arg0 : S100000x64.Idx → EReal) (ix2 ⟨t.val * 5000 + p.val, row_lt t p⟩ k) := by
  have e0 := (idx_facts t).1.1
  have e1 := (idx_facts t).1.2
  unfold iblk3
  rw [View.read_apply]
  show (V c main_arg0 : S100000x64.Idx → EReal) _ = _
  refine congrArg (V c main_arg0 : S100000x64.Idx → EReal) (funext fun a => Fin.ext ?_)
  match a with
  | ⟨0, _⟩ => show win3_0.index t (0 : Fin 2) * 5000 + 1 * p.val = t.val * 5000 + p.val; rw [e0]; omega
  | ⟨1, _⟩ => show win3_0.index t (1 : Fin 2) * 64 + 1 * k.val = k.val; rw [e1]; omega

/-- Tile t of window 1 is rows 5000·t … of its array. -/
theorem iblk_1 (c : Dev nD) (t : Fin cfg3.N) (p : Fin 5000) (k : Fin 64) :
    (iblk3 V c 1 t : Vec Ideal S5000x64 .f32) (ix2 p k) = (V c main_v24 : S100000x64.Idx → EReal) (ix2 ⟨t.val * 5000 + p.val, row_lt t p⟩ k) := by
  have e0 := (idx_facts t).2.1.1
  have e1 := (idx_facts t).2.1.2
  unfold iblk3
  rw [View.read_apply]
  show (V c main_v24 : S100000x64.Idx → EReal) _ = _
  refine congrArg (V c main_v24 : S100000x64.Idx → EReal) (funext fun a => Fin.ext ?_)
  match a with
  | ⟨0, _⟩ => show win3_1.index t (0 : Fin 2) * 5000 + 1 * p.val = t.val * 5000 + p.val; rw [e0]; omega
  | ⟨1, _⟩ => show win3_1.index t (1 : Fin 2) * 64 + 1 * k.val = k.val; rw [e1]; omega

/-- Tile t of window 2 is rows 5000·t … of its array. -/
theorem iblk_2 (c : Dev nD) (t : Fin cfg3.N) (p : Fin 5000) (k : Fin 64) :
    (iblk3 V c 2 t : Vec Ideal S5000x64 .f32) (ix2 p k) = (V c main_v45 : S100000x64.Idx → EReal) (ix2 ⟨t.val * 5000 + p.val, row_lt t p⟩ k) := by
  have e0 := (idx_facts t).2.2.1.1
  have e1 := (idx_facts t).2.2.1.2
  unfold iblk3
  rw [View.read_apply]
  show (V c main_v45 : S100000x64.Idx → EReal) _ = _
  refine congrArg (V c main_v45 : S100000x64.Idx → EReal) (funext fun a => Fin.ext ?_)
  match a with
  | ⟨0, _⟩ => show win3_2.index t (0 : Fin 2) * 5000 + 1 * p.val = t.val * 5000 + p.val; rw [e0]; omega
  | ⟨1, _⟩ => show win3_2.index t (1 : Fin 2) * 64 + 1 * k.val = k.val; rw [e1]; omega

/-- Tile t of window 3 is rows 5000·t … of its array. -/
theorem iblk_3 (c : Dev nD) (t : Fin cfg3.N) (p : Fin 5000) (k : Fin 64) :
    (iblk3 V c 3 t : Vec Ideal S5000x64 .f32) (ix2 p k) = (V c main_v66 : S100000x64.Idx → EReal) (ix2 ⟨t.val * 5000 + p.val, row_lt t p⟩ k) := by
  have e0 := (idx_facts t).2.2.2.1.1
  have e1 := (idx_facts t).2.2.2.1.2
  unfold iblk3
  rw [View.read_apply]
  show (V c main_v66 : S100000x64.Idx → EReal) _ = _
  refine congrArg (V c main_v66 : S100000x64.Idx → EReal) (funext fun a => Fin.ext ?_)
  match a with
  | ⟨0, _⟩ => show win3_3.index t (0 : Fin 2) * 5000 + 1 * p.val = t.val * 5000 + p.val; rw [e0]; omega
  | ⟨1, _⟩ => show win3_3.index t (1 : Fin 2) * 64 + 1 * k.val = k.val; rw [e1]; omega

/-- The classifier's weights are read whole at every tile. -/
theorem iblk_4 (c : Dev nD) (t : Fin cfg3.N) : (iblk3 V c 4 t : Vec Ideal S256x40 .f32) = (V c main_arg6 : S256x40.Idx → EReal) := by
  have e0 := (idx_facts t).2.2.2.2.1.1
  have e1 := (idx_facts t).2.2.2.2.1.2
  funext y
  unfold iblk3
  rw [View.read_apply]
  show (V c main_arg6 : S256x40.Idx → EReal) _ = _
  refine congrArg (V c main_arg6 : S256x40.Idx → EReal) (funext fun a => Fin.ext ?_)
  match a with
  | ⟨0, _⟩ => show win3_4.index t (0 : Fin 2) * 256 + 1 * (y 0).val = (y 0).val; rw [e0]; omega
  | ⟨1, _⟩ => show win3_4.index t (1 : Fin 2) * 40 + 1 * (y 1).val = (y 1).val; rw [e1]; omega

/-- The classifier's bias row is read whole at every tile. -/
theorem iblk_5 (c : Dev nD) (t : Fin cfg3.N) : (iblk3 V c 5 t : Vec Ideal S1x40 .f32) = (V c main_v67 : S1x40.Idx → EReal) := by
  have e0 := (idx_facts t).2.2.2.2.2.1.1
  have e1 := (idx_facts t).2.2.2.2.2.1.2
  funext y
  unfold iblk3
  rw [View.read_apply]
  show (V c main_v67 : S1x40.Idx → EReal) _ = _
  refine congrArg (V c main_v67 : S1x40.Idx → EReal) (funext fun a => Fin.ext ?_)
  match a with
  | ⟨0, _⟩ => show win3_5.index t (0 : Fin 2) * 1 + 1 * (y 0).val = (y 0).val; rw [e0]; omega
  | ⟨1, _⟩ => show win3_5.index t (1 : Fin 2) * 40 + 1 * (y 1).val = (y 1).val; rw [e1]; omega

/-- The joined features of the arrays as the kernel finds them. -/
abbrev outCat (c : Dev nD) : S100000x256.Idx → EReal :=
  cat4 (V c main_arg0 : S100000x64.Idx → EReal) (V c main_v24 : S100000x64.Idx → EReal) (V c main_v45 : S100000x64.Idx → EReal)
    (V c main_v66 : S100000x64.Idx → EReal)

/-- The classifier's output of the arrays as the kernel finds them. -/
abbrev outPred (c : Dev nD) : S100000x40.Idx → EReal :=
  classify (V c main_arg0 : S100000x64.Idx → EReal) (V c main_v24 : S100000x64.Idx → EReal) (V c main_v45 : S100000x64.Idx → EReal)
    (V c main_v66 : S100000x64.Idx → EReal) (V c main_arg6 : S256x40.Idx → EReal) (V c main_v67 : S1x40.Idx → EReal)

/-- What tile t writes back into the joined features is tile t of the join of the whole arrays. -/
theorem flushed_cat (c : Dev nD) (t : Fin cfg3.N) :
    (dat3 V c).flushed 6 t = ((cfg3.win 6).blk t).view.read (Elt Ideal) (outCat V c) := by
  show (cfg3.win 6).cut (grid3.coords t) ((dat3 V c).after 6 t) = _
  rw [after3_6]
  unfold out3_6
  rw [View.canon_unit_zero hz]
  simp only [View.ld_unit_zero (S := S5000x64) hz]
  rw [pay_cat]
  have e0 := (idx_facts t).2.2.2.2.2.2.1.1
  have e1 := (idx_facts t).2.2.2.2.2.2.1.2
  refine funext fun (j : S5000x256.Idx) => ?_
  obtain ⟨p, q, rfl⟩ : ∃ (p : Fin 5000) (q : Fin 256), j = ix2 p q := ⟨j 0, j 1, eq_ix2 j⟩
  show cat4 (iblk3 V c 0 t : Vec Ideal S5000x64 .f32) (iblk3 V c 1 t : Vec Ideal S5000x64 .f32) (iblk3 V c 2 t : Vec Ideal S5000x64 .f32)
      (iblk3 V c 3 t : Vec Ideal S5000x64 .f32) (ix2 p q)
    = outCat V c (((cfg3.win 6).blk t).view.emb (ix2 p q))
  have hemb : ((cfg3.win 6).blk t).view.emb (ix2 p q) = (ix2 (⟨t.val * 5000 + p.val, row_lt t p⟩ : Fin 100000) q : S100000x256.Idx) := by
    refine funext fun a => Fin.ext ?_
    match a with
    | ⟨0, _⟩ => show win3_6.index t (0 : Fin 2) * 5000 + 1 * p.val = t.val * 5000 + p.val; rw [e0]; omega
    | ⟨1, _⟩ => show win3_6.index t (1 : Fin 2) * 256 + 1 * q.val = q.val; rw [e1]; omega
  rw [hemb]
  exact cat4_rows _ _ _ _ _ _ _ _ (⟨t.val * 5000 + p.val, row_lt t p⟩ : Fin 100000) p
    (fun k => iblk_0 V c t p k) (fun k => iblk_1 V c t p k) (fun k => iblk_2 V c t p k) (fun k => iblk_3 V c t p k) q

/-- What tile t writes back into the classifier's output is tile t of the classifier of the whole arrays. -/
theorem flushed_pred (c : Dev nD) (t : Fin cfg3.N) :
    (dat3 V c).flushed 7 t = ((cfg3.win 7).blk t).view.read (Elt Ideal) (outPred V c) := by
  show (cfg3.win 7).cut (grid3.coords t) ((dat3 V c).after 7 t) = _
  rw [after3_7]
  unfold out3_7
  rw [View.canon_unit_zero hz]
  simp only [View.ld_unit_zero (S := S5000x64) hz, View.ld_unit_zero (S := S256x40) hz, View.ld_unit_zero (S := S1x40) hz]
  rw [pay_pred, iblk_4 V c t, iblk_5 V c t]
  have e0 := (idx_facts t).2.2.2.2.2.2.2.1
  have e1 := (idx_facts t).2.2.2.2.2.2.2.2
  refine funext fun (j : S5000x40.Idx) => ?_
  obtain ⟨p, q, rfl⟩ : ∃ (p : Fin 5000) (q : Fin 40), j = ix2 p q := ⟨j 0, j 1, eq_ix2 j⟩
  show classify (iblk3 V c 0 t : Vec Ideal S5000x64 .f32) (iblk3 V c 1 t : Vec Ideal S5000x64 .f32) (iblk3 V c 2 t : Vec Ideal S5000x64 .f32)
      (iblk3 V c 3 t : Vec Ideal S5000x64 .f32) _ _ (ix2 p q)
    = outPred V c (((cfg3.win 7).blk t).view.emb (ix2 p q))
  have hemb : ((cfg3.win 7).blk t).view.emb (ix2 p q) = (ix2 (⟨t.val * 5000 + p.val, row_lt t p⟩ : Fin 100000) q : S100000x40.Idx) := by
    refine funext fun a => Fin.ext ?_
    match a with
    | ⟨0, _⟩ => show win3_7.index t (0 : Fin 2) * 5000 + 1 * p.val = t.val * 5000 + p.val; rw [e0]; omega
    | ⟨1, _⟩ => show win3_7.index t (1 : Fin 2) * 40 + 1 * q.val = q.val; rw [e1]; omega
  rw [hemb]
  exact classify_rows _ _ _ _ _ _ _ _ _ _ (⟨t.val * 5000 + p.val, row_lt t p⟩ : Fin 100000) p
    (fun k => iblk_0 V c t p k) (fun k => iblk_1 V c t p k) (fun k => iblk_2 V c t p k) (fun k => iblk_3 V c t p k) q

theorem mem_blk6 (t : Fin cfg3.N) (i : S100000x256.Idx) :
    i ∈ ((cfg3.win 6).blk t).view.set ↔ ∀ a : Fin 2, win3_6.index t a * S5000x256.size a ≤ (i a).val ∧ (i a).val < win3_6.index t a * S5000x256.size a + S5000x256.size a := by
  show i ∈ ((View.whole main_v68_0).slice (win3_6.rect t)).set ↔ _
  rw [View.set_slice_whole, Rect.mem_set_unit]
  exact Iff.rfl

theorem mem_blk7 (t : Fin cfg3.N) (i : S100000x40.Idx) :
    i ∈ ((cfg3.win 7).blk t).view.set ↔ ∀ a : Fin 2, win3_7.index t a * S5000x40.size a ≤ (i a).val ∧ (i a).val < win3_7.index t a * S5000x40.size a + S5000x40.size a := by
  show i ∈ ((View.whole main_v68_1).slice (win3_7.rect t)).set ↔ _
  rw [View.set_slice_whole, Rect.mem_set_unit]
  exact Iff.rfl

/-- THE JOINED FEATURES after the kernel. -/
theorem cat_eq (c : Dev nD) : (dat3 V c).arrAt 6 cfg3.N = outCat V c :=
  (dat3 V c).arrAt_eq_of_cover 6 (outCat V c) (fun t _ => flushed_cat V c t) fun i => by
    have hi0 : (i 0).val < 100000 := (i 0).isLt
    have hi1 : (i 1).val < 256 := (i 1).isLt
    obtain ⟨t, ht⟩ : ∃ t : Fin cfg3.N, t.val = (i 0).val / 5000 :=
      ⟨⟨(i 0).val / 5000, lt_of_lt_of_eq (by omega : (i 0).val / 5000 < 20) N_3.symm⟩, rfl⟩
    have e0 := (idx_facts t).2.2.2.2.2.2.1.1
    have e1 := (idx_facts t).2.2.2.2.2.2.1.2
    refine ⟨t, flush3_6 t, ?_⟩
    rw [mem_blk6]
    intro a
    match a with
    | ⟨0, _⟩ => show win3_6.index t (0 : Fin 2) * 5000 ≤ (i 0).val ∧ (i 0).val < win3_6.index t (0 : Fin 2) * 5000 + 5000; rw [e0]; omega
    | ⟨1, _⟩ => show win3_6.index t (1 : Fin 2) * 256 ≤ (i 1).val ∧ (i 1).val < win3_6.index t (1 : Fin 2) * 256 + 256; rw [e1]; omega

/-- THE CLASSIFIER'S OUTPUT after the kernel. -/
theorem pred_eq (c : Dev nD) : (dat3 V c).arrAt 7 cfg3.N = outPred V c :=
  (dat3 V c).arrAt_eq_of_cover 7 (outPred V c) (fun t _ => flushed_pred V c t) fun i => by
    have hi0 : (i 0).val < 100000 := (i 0).isLt
    have hi1 : (i 1).val < 40 := (i 1).isLt
    obtain ⟨t, ht⟩ : ∃ t : Fin cfg3.N, t.val = (i 0).val / 5000 :=
      ⟨⟨(i 0).val / 5000, lt_of_lt_of_eq (by omega : (i 0).val / 5000 < 20) N_3.symm⟩, rfl⟩
    have e0 := (idx_facts t).2.2.2.2.2.2.2.1
    have e1 := (idx_facts t).2.2.2.2.2.2.2.2
    refine ⟨t, flush3_7 t, ?_⟩
    rw [mem_blk7]
    intro a
    match a with
    | ⟨0, _⟩ => show win3_7.index t (0 : Fin 2) * 5000 ≤ (i 0).val ∧ (i 0).val < win3_7.index t (0 : Fin 2) * 5000 + 5000; rw [e0]; omega
    | ⟨1, _⟩ => show win3_7.index t (1 : Fin 2) * 40 ≤ (i 1).val ∧ (i 1).val < win3_7.index t (1 : Fin 2) * 40 + 40; rw [e1]; omega

end Cert.KernelIdeal.Final

end
-- ==== Proof.Chain4.lean ====
/-
  The two result arrays.

  Before the last kernel the host only casts the classifier's bias to a row. The kernel reads the input features, the
  three layers' results, the classifier's weights and that row, and leaves the joined features and the classifier's
  output: the reference's two results (`ref_cat`, `ref_pred`).
-/
import proofs.«172555_j16810501996621_1_alg».proof.Proof.Chain3
import proofs.«172555_j16810501996621_1_alg».proof.Proof.Final

noncomputable section

namespace Cert.KernelIdeal.Chain

open Cert.KernelIdeal Cert.KernelIdeal.Gen Idealize.ShloMosaic Idealize.ShloMosaic.TcCoe Idealize.SL.Sem
open Idealize.ShloMosaic.StableHlo
open Idealize.ShloMosaic.Pipeline (Dat)
open Cert.ReferenceIdeal.Read Cert.ReferenceIdeal.Layers DenseSpec GinSpec Concat4

variable (m : (ℓ : Loc nD τ sig) → Buf (Elt Ideal) ℓ) (ρ : Dev nD → PrngReg)

/-! ## Before the last kernel -/

theorem r3_x (c : Dev nD) : W7 m ρ c (Proc.devRef .tc main_arg0) = (m ((c : Thread nD τ).loc main_arg0)) := by
  show StableHlo.after hostOps3 (W6 m ρ c) (Proc.devRef .tc main_arg0) = _
  after_results_simp
  exact w6_arg0 m ρ c

theorem r3_h1 (c : Dev nD) : W7 m ρ c (Proc.devRef .tc main_v24) = val_main_v31 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  show StableHlo.after hostOps3 (W6 m ρ c) (Proc.devRef .tc main_v24) = _
  after_results_simp
  exact w6_h1 m ρ c

theorem r3_h2 (c : Dev nD) : W7 m ρ c (Proc.devRef .tc main_v45) = val_main_v59 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  show StableHlo.after hostOps3 (W6 m ρ c) (Proc.devRef .tc main_v45) = _
  after_results_simp
  exact w6_h2 m ρ c

theorem r3_h3 (c : Dev nD) : W7 m ρ c (Proc.devRef .tc main_v66) = val_main_v87 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  show StableHlo.after hostOps3 (W6 m ρ c) (Proc.devRef .tc main_v66) = _
  after_results_simp
  exact w6_h3 m ρ c

theorem r3_wl (c : Dev nD) : W7 m ρ c (Proc.devRef .tc main_arg6) = (m ((c : Thread nD τ).loc main_arg6)) := by
  show StableHlo.after hostOps3 (W6 m ρ c) (Proc.devRef .tc main_arg6) = _
  after_results_simp
  exact w6_arg6 m ρ c

theorem r3_bl' (c : Dev nD) : W7 m ρ c (Proc.devRef .tc main_v67) = shapeCast S1x40 (m ((c : Thread nD τ).loc main_arg7)) shapeCasts_S40_S1x40 := by
  show StableHlo.after hostOps3 (W6 m ρ c) (Proc.devRef .tc main_v67) = _
  after_results_simp
  rw [w6_arg7 m ρ c]
  rfl

/-- The classifier's bias as a row: cast by the host, broadcast by the reference. -/
theorem r3_bl (c : Dev nD) : W7 m ρ c (Proc.devRef .tc main_v67) = val_main_v90 (F := Ideal) (m ((c : Thread nD τ).loc main_arg7)) :=
  (r3_bl' m ρ c).trans (broadcastInDim_row_eq_shapeCast _ _ _).symm

/-! ## After the last kernel -/

/-- THE JOINED FEATURES are the reference's. -/
theorem joined (c : Dev nD) : W8 m ρ c (Proc.devRef .tc main_v68_0) = val_main_v88 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W8_arr m ρ c 6).trans ((Final.cat_eq (V7 m ρ) c).trans ?_)
  rw [ref_cat]
  exact cat4_congr (r3_x m ρ c) (r3_h1 m ρ c) (r3_h2 m ρ c) (r3_h3 m ρ c)

/-- THE CLASSIFIER'S OUTPUT is the reference's. -/
theorem predicted (c : Dev nD) : W8 m ρ c (Proc.devRef .tc main_v68_1) = val_main_v92 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W8_arr m ρ c 7).trans ((Final.pred_eq (V7 m ρ) c).trans ?_)
  rw [ref_pred]
  exact classify_congr (r3_x m ρ c) (r3_h1 m ρ c) (r3_h2 m ρ c) (r3_h3 m ρ c) (r3_wl m ρ c) (r3_bl m ρ c)

end Cert.KernelIdeal.Chain

end
-- ==== Proof.lean ====
/-
  A three-layer graph network with a linear classifier, computed by four tiled kernels among host operations, against its
  plain array reference: at the ideal values (floats as extended reals, every operation exact, changes of format the
  identity) the two programs end with equal results.

  Both programs compute, for features x (100000 nodes by 64) and an edge list, three times
      h ← dense (relu (dense (S h + h) W1 b1)) W2 b2,
  where S h adds, into each destination node's row, the rows of h at the sources of its edges, and then the join
  [x, h1, h2, h3] (100000 by 256) and the classifier's output dense [x, h1, h2, h3] Wlin blin (100000 by 40).

  The neighbourhood sums S h and the slicing of the stacked weights are the SAME host operations in both programs, so they
  are never opened: each of the kernel program's buffers is shown to hold the reference's value of the same stage. What
  differs is the dense part. The reference computes it on whole arrays with `dot_general`; the kernels compute it tile by
  tile of rows on the matrix unit into zero accumulators, after rounding the operands to a shorter format (the identity
  here). Read at an index both are the same sums in the same order of terms, and each entry depends on one row of the
  row-tiled operands only, so the tiles written back are the row blocks of the whole-array function and together cover it.
  No law of arithmetic beyond this reading is used; in particular nothing needs the inputs to be finite.

  The three frames are the generated ones (the reference's is its generated run with the results dropped); the ideal
  pass rewrote nothing, so there is nothing to preserve.
-/
import proofs.«172555_j16810501996621_1_alg».proof.Defs
import proofs.«172555_j16810501996621_1_alg».proof.Proof.Gen.Kernel
import proofs.«172555_j16810501996621_1_alg».proof.Proof.Gen.Kernel.Skeleton
import proofs.«172555_j16810501996621_1_alg».proof.Proof.Gen.Kernel.Launch
import proofs.«172555_j16810501996621_1_alg».proof.Proof.Gen.Kernel.Points
import proofs.«172555_j16810501996621_1_alg».proof.Proof.Gen.Kernel.Frame
import proofs.«172555_j16810501996621_1_alg».proof.Proof.Gen.KernelIdeal
import proofs.«172555_j16810501996621_1_alg».proof.Proof.Gen.KernelIdeal.Skeleton
import proofs.«172555_j16810501996621_1_alg».proof.Proof.Gen.KernelIdeal.Launch
import proofs.«172555_j16810501996621_1_alg».proof.Proof.Gen.KernelIdeal.Points
import proofs.«172555_j16810501996621_1_alg».proof.Proof.Gen.KernelIdeal.Frame
import proofs.«172555_j16810501996621_1_alg».proof.Proof.Gen.ReferenceIdeal
import proofs.«172555_j16810501996621_1_alg».proof.Proof.Gen.Pre_finite_inputs
import proofs.«172555_j16810501996621_1_alg».proof.Proof.Gen.ReferenceIdeal.Run
import proofs.«172555_j16810501996621_1_alg».proof.Proof.Gen.ReferenceIdeal.Read
import proofs.«172555_j16810501996621_1_alg».proof.Proof.KernelRun
import proofs.«172555_j16810501996621_1_alg».proof.Proof.Chain4
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- Both programs end with the reference's two values of the (agreeing) arguments. -/
theorem algebraic : Cert.algebraic_KernelIdeal_ReferenceIdeal := by
  intro m ρ m' ρ' _ hagree
  refine ⟨fun c => Cert.ReferenceIdeal.Read.val_main_v92 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7)),
    fun c => Cert.ReferenceIdeal.Read.val_main_v88 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Chain.predicted m ρ c), (h c).2.1.trans (Cert.KernelIdeal.Chain.joined m ρ c), (h c).2.2⟩)
      (Cert.KernelIdeal.Results.run (F := Ideal) m ρ)
  · refine (θ_run Cert.ReferenceIdeal.defs _ _).mono (fun r h c => ?_) (Cert.ReferenceIdeal.Value.run (F := Ideal) m' ρ')
    obtain ⟨e0, e1, e2, e3, e4, e5, e6, e7⟩ := hagree c
    refine ⟨(h c).1.trans ?_, (h c).2.1.trans ?_, (h c).2.2⟩
    · rw [Cert.ReferenceIdeal.Read.val_main_v92_eq, e0, e1, e2, e3, e4, e5, e6, e7]
    · rw [Cert.ReferenceIdeal.Read.val_main_v88_eq, e0, e1, e2, e3, e4, e5]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
